-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x64x512 : Shape := ⟨4, ![32, 32, 64, 512]⟩
abbrev S64x512 : Shape := ⟨2, ![64, 512]⟩
abbrev S64 : Shape := ⟨1, ![64]⟩
abbrev S1x64 : Shape := ⟨2, ![1, 64]⟩
abbrev S1 : Shape := ⟨1, ![1]⟩
abbrev S256x512 : Shape := ⟨2, ![256, 512]⟩
abbrev S256 : Shape := ⟨1, ![256]⟩
abbrev S_ : Shape := ⟨0, ![]⟩

class Facts : Prop where
  bcast_S_S32x32x64x512 : S_.BroadcastsInDim S32x32x64x512 (![] : Fin 0 → Fin S32x32x64x512.rank)
  reducesTo_S32x32x64x512_S_d0_1_2_3 : S32x32x64x512.ReducesTo [0, 1, 2, 3] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S1x64 .f32) (main_arg5 : FVec F S1 .f32) (main_arg6 : FVec F S256x512 .f32) (main_arg7 : FVec F S256 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg7 main_v33

def fn {F : FTy → Type} [FloatOps F] (main_arg0 : FVec F S32x32x64x512 .f32) (main_arg1 : FVec F S64x512 .f32) (main_arg2 : FVec F S64 .f32) (main_arg3 : FVec F S64 .f32) (main_arg4 : FVec F S1x64 .f32) (main_arg5 : FVec F S1 .f32) (main_arg6 : FVec F S256x512 .f32) (main_arg7 : FVec F S256 .f32) : IVec S_ 1 :=
  let main_v0 : FVec F S32x32x64x512 .f32 := Host.absf main_arg0
  let main_cst : FVec F S_ .f32 := constant S_ .f32 0x7F800000#32
  let main_v1 : FVec F S32x32x64x512 .f32 := broadcastInDim S32x32x64x512 ![] bcast_S_S32x32x64x512 main_cst
  let main_v2 : IVec S32x32x64x512 1 := cmpf .olt main_v0 main_v1
  let main_c : IVec S_ 1 := constantI S_ 1 1#1
  let main_v3 : IVec S_ 1 := (fun x v => Host.reduce IntOp.andi x v reducesTo_S32x32x64x512_S_d0_1_2_3 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S32x32x64x512 : Shape := ⟨4, ![32, 32, 64, 512]⟩
abbrev S64x512 : Shape := ⟨2, ![64, 512]⟩
abbrev S64 : Shape := ⟨1, ![64]⟩
abbrev S1x64 : Shape := ⟨2, ![1, 64]⟩
abbrev S1 : Shape := ⟨1, ![1]⟩
abbrev S256x512 : Shape := ⟨2, ![256, 512]⟩
abbrev S256 : Shape := ⟨1, ![256]⟩
abbrev S32x32x256 : Shape := ⟨3, ![32, 32, 256]⟩
abbrev S1x32x64x512 : Shape := ⟨4, ![1, 32, 64, 512]⟩
abbrev S1x32x256 : Shape := ⟨3, ![1, 32, 256]⟩
abbrev S32x64x512 : Shape := ⟨3, ![32, 64, 512]⟩
abbrev S2048x512 : Shape := ⟨2, ![2048, 512]⟩
abbrev S2048x64 : Shape := ⟨2, ![2048, 64]⟩
abbrev S2048x1 : Shape := ⟨2, ![2048, 1]⟩
abbrev S1x1 : Shape := ⟨2, ![1, 1]⟩
abbrev S32x64 : Shape := ⟨2, ![32, 64]⟩
abbrev S32 : Shape := ⟨1, ![32]⟩
abbrev S32x1 : Shape := ⟨2, ![32, 1]⟩
abbrev S32x64x1 : Shape := ⟨3, ![32, 64, 1]⟩
abbrev S32x512 : Shape := ⟨2, ![32, 512]⟩
abbrev S32x256 : Shape := ⟨2, ![32, 256]⟩
abbrev S1x256 : Shape := ⟨2, ![1, 256]⟩

abbrev nBuf : Space → Nat
  | .hbm => 10
  | .vmem => 11
  | .smem => 0
  | _ => 0

abbrev bufTy : (tb : Table) → Fin (tcTables nBuf tb) → BufTy
  | .hbm, ⟨0, _⟩ => ⟨S32x32x64x512, .f32⟩
  | .hbm, ⟨1, _⟩ => ⟨S64x512, .f32⟩
  | .hbm, ⟨2, _⟩ => ⟨S64, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S256x512, .f32⟩
  | .hbm, ⟨7, _⟩ => ⟨S256, .f32⟩
  | .hbm, ⟨8, _⟩ => ⟨S32x32x256, .f32⟩
  | .hbm, ⟨9, _⟩ => ⟨S32x32x256, .f32⟩
  | .local _ .vmem, ⟨0, _⟩ => ⟨S1x32x64x512, .f32⟩
  | .local _ .vmem, ⟨1, _⟩ => ⟨S1x32x64x512, .f32⟩
  | .local _ .vmem, ⟨2, _⟩ => ⟨S64x512, .f32⟩
  | .local _ .vmem, ⟨3, _⟩ => ⟨S64, .f32⟩
  | .local _ .vmem, ⟨4, _⟩ => ⟨S64, .f32⟩
  | .local _ .vmem, ⟨5, _⟩ => ⟨S1x64, .f32⟩
  | .local _ .vmem, ⟨6, _⟩ => ⟨S1, .f32⟩
  | .local _ .vmem, ⟨7, _⟩ => ⟨S256x512, .f32⟩
  | .local _ .vmem, ⟨8, _⟩ => ⟨S256, .f32⟩
  | .local _ .vmem, ⟨9, _⟩ => ⟨S1x32x256, .f32⟩
  | .local _ .vmem, ⟨10, _⟩ => ⟨S1x32x256, .f32⟩
  | _, _ => ⟨S32x32x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S1x32x64x512_S1x32x64x512_0_0_0_0 : ∀ a, (![0, 0, 0, 0] : Fin 4 → Nat) a + S1x32x64x512.size a ≤ S1x32x64x512.size a
  h_S1x32x64x512 : 0 < S1x32x64x512.numel
  shapeCasts_S1x32x64x512_S32x64x512 : S1x32x64x512.ShapeCasts S32x64x512
  bitsLt_bf16_f32 : FTy.bits .bf16 < FTy.bits .f32
  shapeCasts_S32x64x512_S2048x512 : S32x64x512.ShapeCasts S2048x512
  inb_S64x512_S64x512_0_0 : ∀ a, (![0, 0] : Fin 2 → Nat) a + S64x512.size a ≤ S64x512.size a
  h_S64x512 : 0 < S64x512.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S1x64_S1x64_0_0 : ∀ a, (![0, 0] : Fin 2 → Nat) a + S1x64.size a ≤ S1x64.size a
  h_S1x64 : 0 < S1x64.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  shapeCasts_S2048x1_S32x64 : S2048x1.ShapeCasts S32x64
  reduces_S32x64_S32 : S32x64.Reduces [1] S32
  shapeCasts_S32_S32x1 : S32.ShapeCasts S32x1
  broadcasts_S32x1_S32x64 : S32x1.Broadcasts S32x64
  shapeCasts_S32x64_S32x64x1 : S32x64.ShapeCasts S32x64x1
  broadcasts_S32x64x1_S32x64x512 : S32x64x1.Broadcasts S32x64x512
  reduces_S32x64x512_S32x512 : S32x64x512.Reduces [1] S32x512
  inb_S256x512_S256x512_0_0 : ∀ a, (![0, 0] : Fin 2 → Nat) a + S256x512.size a ≤ S256x512.size a
  h_S256x512 : 0 < S256x512.numel
  inb_S256_S256_0 : ∀ a, (![0] : Fin 1 → Nat) a + S256.size a ≤ S256.size a
  h_S256 : 0 < S256.numel
  shapeCasts_S256_S1x256 : S256.ShapeCasts S1x256
  broadcasts_S1x256_S32x256 : S1x256.Broadcasts S32x256
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  shapeCasts_S32x256_S1x32x256 : S32x256.ShapeCasts S1x32x256
  transposes_S32x32x256_S32x32x256_1_0_2 : S32x32x256.Transposes [1, 0, 2] S32x32x256
  dot_S2048x512_S64x512_S2048x64_1_1_0_0_n_n_wf : DotDims.WF S2048x512 S64x512 S2048x64 [1] [1] [0] [0] [] []
  dot_S2048x64_S1x64_S2048x1_1_1_0_0_n_n_wf : DotDims.WF S2048x64 S1x64 S2048x1 [1] [1] [0] [0] [] []
  dot_S32x512_S256x512_S32x256_1_1_0_0_n_n_wf : DotDims.WF S32x512 S256x512 S32x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x64x512.size a ≤ S32x32x64x512.size a
  hwx0_0 : ∀ i : grid0.Coords, EltTy.bits .f32 = 32 ∨ (Rect.block (s := S32x32x64x512) S1x32x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .f32 = 32 ∨ (Rect.block (s := S256x512) S256x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x32x256.size a ≤ S32x32x256.size a
  hwx0_8 : ∀ i : grid0.Coords, EltTy.bits .f32 = 32 ∨ (Rect.block (s := S32x32x256) S1x32x256.size (cc0_transform_8 i) (hinb0_8 i)).WholeWords (EltTy.packing .f32)

variable [Facts₀]

def dot_S2048x512_S64x512_S2048x64_1_1_0_0_n_n : DotDims S2048x512 S64x512 S2048x64 where
  lhsContracting := [1]
  rhsContracting := [1]
  lhsNonContracting := [0]
  rhsNonContracting := [0]
  lhsBatch := []
  rhsBatch := []
  wf := dot_S2048x512_S64x512_S2048x64_1_1_0_0_n_n_wf
def dot_S2048x64_S1x64_S2048x1_1_1_0_0_n_n : DotDims S2048x64 S1x64 S2048x1 where
  lhsContracting := [1]
  rhsContracting := [1]
  lhsNonContracting := [0]
  rhsNonContracting := [0]
  lhsBatch := []
  rhsBatch := []
  wf := dot_S2048x64_S1x64_S2048x1_1_1_0_0_n_n_wf
def dot_S32x512_S256x512_S32x256_1_1_0_0_n_n : DotDims S32x512 S256x512 S32x256 where
  lhsContracting := [1]
  rhsContracting := [1]
  lhsNonContracting := [0]
  rhsNonContracting := [0]
  lhsBatch := []
  rhsBatch := []
  wf := dot_S32x512_S256x512_S32x256_1_1_0_0_n_n_wf

abbrev win0_0 : Pipeline.Window sig grid0 :=
  Pipeline.Window.ofSpec (Memref.whole main_arg0) S1x32x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x32x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x32x64x512 : Shape := ⟨4, ![32, 32, 64, 512]⟩
abbrev S64x512 : Shape := ⟨2, ![64, 512]⟩
abbrev S64 : Shape := ⟨1, ![64]⟩
abbrev S1x64 : Shape := ⟨2, ![1, 64]⟩
abbrev S1 : Shape := ⟨1, ![1]⟩
abbrev S256x512 : Shape := ⟨2, ![256, 512]⟩
abbrev S256 : Shape := ⟨1, ![256]⟩
abbrev S1024x64x512 : Shape := ⟨3, ![1024, 64, 512]⟩
abbrev S1024x64x64 : Shape := ⟨3, ![1024, 64, 64]⟩
abbrev S1x1x64 : Shape := ⟨3, ![1, 1, 64]⟩
abbrev S_ : Shape := ⟨0, ![]⟩
abbrev S1024x64x1 : Shape := ⟨3, ![1024, 64, 1]⟩
abbrev S1x1x1 : Shape := ⟨3, ![1, 1, 1]⟩
abbrev S1024x1 : Shape := ⟨2, ![1024, 1]⟩
abbrev S1024x1x1 : Shape := ⟨3, ![1024, 1, 1]⟩
abbrev S1024x512 : Shape := ⟨2, ![1024, 512]⟩
abbrev S512x256 : Shape := ⟨2, ![512, 256]⟩
abbrev S1024x256 : Shape := ⟨2, ![1024, 256]⟩
abbrev S1x256 : Shape := ⟨2, ![1, 256]⟩
abbrev S32x32x256 : Shape := ⟨3, ![32, 32, 256]⟩

abbrev nBuf : Space → Nat
  | .hbm => 53
  | .vmem => 0
  | .smem => 0
  | _ => 0

abbrev bufTy : (tb : Table) → Fin (tcTables nBuf tb) → BufTy
  | .hbm, ⟨0, _⟩ => ⟨S32x32x64x512, .f32⟩
  | .hbm, ⟨1, _⟩ => ⟨S64x512, .f32⟩
  | .hbm, ⟨2, _⟩ => ⟨S64, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S256x512, .f32⟩
  | .hbm, ⟨7, _⟩ => ⟨S256, .f32⟩
  | .hbm, ⟨8, _⟩ => ⟨S1024x64x512, .f32⟩
  | .hbm, ⟨9, _⟩ => ⟨S1024x64x64, .f32⟩
  | .hbm, ⟨10, _⟩ => ⟨S1x1x64, .f32⟩
  | .hbm, ⟨11, _⟩ => ⟨S1024x64x64, .f32⟩
  | .hbm, ⟨12, _⟩ => ⟨S1024x64x64, .f32⟩
  | .hbm, ⟨13, _⟩ => ⟨S1x1x64, .f32⟩
  | .hbm, ⟨14, _⟩ => ⟨S1024x64x64, .f32⟩
  | .hbm, ⟨15, _⟩ => ⟨S1024x64x64, .f32⟩
  | .hbm, ⟨16, _⟩ => ⟨S_, .f32⟩
  | .hbm, ⟨17, _⟩ => ⟨S_, .f32⟩
  | .hbm, ⟨18, _⟩ => ⟨S1024x64x64, .f32⟩
  | .hbm, ⟨19, _⟩ => ⟨S1024x64x64, .i1⟩
  | .hbm, ⟨20, _⟩ => ⟨S_, .f32⟩
  | .hbm, ⟨21, _⟩ => ⟨S1024x64x64, .f32⟩
  | .hbm, ⟨22, _⟩ => ⟨S1024x64x64, .f32⟩
  | .hbm, ⟨23, _⟩ => ⟨S1024x64x64, .f32⟩
  | .hbm, ⟨24, _⟩ => ⟨S1024x64x1, .f32⟩
  | .hbm, ⟨25, _⟩ => ⟨S1x1x1, .f32⟩
  | .hbm, ⟨26, _⟩ => ⟨S1024x64x1, .f32⟩
  | .hbm, ⟨27, _⟩ => ⟨S1024x64x1, .f32⟩
  | .hbm, ⟨28, _⟩ => ⟨S_, .f32⟩
  | .hbm, ⟨29, _⟩ => ⟨S1024x1, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S1024x1x1, .f32⟩
  | .hbm, ⟨34, _⟩ => ⟨S1024x64x1, .f32⟩
  | .hbm, ⟨35, _⟩ => ⟨S1024x64x1, .f32⟩
  | .hbm, ⟨36, _⟩ => ⟨S1024x64x1, .f32⟩
  | .hbm, ⟨37, _⟩ => ⟨S_, .f32⟩
  | .hbm, ⟨38, _⟩ => ⟨S1024x1, .f32⟩
  | .hbm, ⟨39, _⟩ => ⟨S1024x1x1, .f32⟩
  | .hbm, ⟨40, _⟩ => ⟨S1024x64x1, .f32⟩
  | .hbm, ⟨41, _⟩ => ⟨S1024x64x1, .f32⟩
  | .hbm, ⟨42, _⟩ => ⟨S1024x64x512, .f32⟩
  | .hbm, ⟨43, _⟩ => ⟨S1024x64x512, .f32⟩
  | .hbm, ⟨44, _⟩ => ⟨S_, .f32⟩
  | .hbm, ⟨45, _⟩ => ⟨S1024x512, .f32⟩
  | .hbm, ⟨46, _⟩ => ⟨S512x256, .f32⟩
  | .hbm, ⟨47, _⟩ => ⟨S1024x256, .f32⟩
  | .hbm, ⟨48, _⟩ => ⟨S1x256, .f32⟩
  | .hbm, ⟨49, _⟩ => ⟨S1024x256, .f32⟩
  | .hbm, ⟨50, _⟩ => ⟨S1024x256, .f32⟩
  | .hbm, ⟨51, _⟩ => ⟨S32x32x256, .f32⟩
  | .hbm, ⟨52, _⟩ => ⟨S32x32x256, .f32⟩
  | _, _ => ⟨S32x32x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  shapeCasts_S32x32x64x512_S1024x64x512 : S32x32x64x512.ShapeCasts S1024x64x512
  bcast_S64_S1x1x64_2 : S64.BroadcastsInDim S1x1x64 (![2] : Fin 1 → Fin S1x1x64.rank)
  bcast_S1x1x64_S1024x64x64_0_1_2 : S1x1x64.BroadcastsInDim S1024x64x64 (![0, 1, 2] : Fin 3 → Fin S1024x64x64.rank)
  bcast_S_S1024x64x64 : S_.BroadcastsInDim S1024x64x64 (![] : Fin 0 → Fin S1024x64x64.rank)
  bcast_S1_S1x1x1_2 : S1.BroadcastsInDim S1x1x1 (![2] : Fin 1 → Fin S1x1x1.rank)
  bcast_S1x1x1_S1024x64x1_0_1_2 : S1x1x1.BroadcastsInDim S1024x64x1 (![0, 1, 2] : Fin 3 → Fin S1024x64x1.rank)
  reducesTo_S1024x64x1_S1024x1_d1 : S1024x64x1.ReducesTo [1] S1024x1
  h_S_ : 0 < S_.numel
  bcast_S_S1024x1 : S_.BroadcastsInDim S1024x1 (![] : Fin 0 → Fin S1024x1.rank)
  bcast_S1024x1_S1024x1x1_0_2 : S1024x1.BroadcastsInDim S1024x1x1 (![0, 2] : Fin 2 → Fin S1024x1x1.rank)
  bcast_S1024x1x1_S1024x64x1_0_1_2 : S1024x1x1.BroadcastsInDim S1024x64x1 (![0, 1, 2] : Fin 3 → Fin S1024x64x1.rank)
  bcast_S1024x64x1_S1024x64x512_0_1_2 : S1024x64x1.BroadcastsInDim S1024x64x512 (![0, 1, 2] : Fin 3 → Fin S1024x64x512.rank)
  reducesTo_S1024x64x512_S1024x512_d1 : S1024x64x512.ReducesTo [1] S1024x512
  transposes_S256x512_S512x256_1_0 : S256x512.Transposes [1, 0] S512x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  shapeCasts_S1024x256_S32x32x256 : S1024x256.ShapeCasts S32x32x256
  transposes_S32x32x256_S32x32x256_1_0_2 : S32x32x256.Transposes [1, 0, 2] S32x32x256
  dot_S1024x64x512_S64x512_S1024x64x64_2_1_01_0_n_n_wf : DotDims.WF S1024x64x512 S64x512 S1024x64x64 [2] [1] [0, 1] [0] [] []
  dot_S1024x64x64_S1x64_S1024x64x1_2_1_01_0_n_n_wf : DotDims.WF S1024x64x64 S1x64 S1024x64x1 [2] [1] [0, 1] [0] [] []
  dot_S1024x512_S512x256_S1024x256_1_0_0_1_n_n_wf : DotDims.WF S1024x512 S512x256 S1024x256 [1] [0] [0] [1] [] []

variable [Facts₀]

def dot_S1024x64x512_S64x512_S1024x64x64_2_1_01_0_n_n : DotDims S1024x64x512 S64x512 S1024x64x64 where
  lhsContracting := [2]
  rhsContracting := [1]
  lhsNonContracting := [0, 1]
  rhsNonContracting := [0]
  lhsBatch := []
  rhsBatch := []
  wf := dot_S1024x64x512_S64x512_S1024x64x64_2_1_01_0_n_n_wf
def dot_S1024x64x64_S1x64_S1024x64x1_2_1_01_0_n_n : DotDims S1024x64x64 S1x64 S1024x64x1 where
  lhsContracting := [2]
  rhsContracting := [1]
  lhsNonContracting := [0, 1]
  rhsNonContracting := [0]
  lhsBatch := []
  rhsBatch := []
  wf := dot_S1024x64x64_S1x64_S1024x64x1_2_1_01_0_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

class Facts : Prop extends Facts₀ where

variable [Facts]
-- ==== Proof.Spec.lean ====
/-
  One row of an attention pooling, as a function on the extended reals.

  For one (batch, time) pair the data is a 64 × 512 matrix X (64 nodes, 512 features). The nodes are embedded by a
  64 × 512 matrix W with two biases, passed through the leaky rectifier of slope 0.2, and scored by a vector w
  with an offset c; the 64 scores are turned into weights by the softmax (each score less the largest, exponentiated,
  divided by the sum of the exponentials); the rows of X are averaged with those weights; and the 512 averaged
  features are projected by a 256 × 512 matrix W₃ with a bias. Every sum is the exact finite sum, so neither the
  order of the terms nor any tiling is part of the function.
-/
import Idealize.ShloMosaic.PureOps.Ideal
import Idealize.ShloMosaic.Lib.ValueIdx

open scoped BigOperators

noncomputable section

namespace Cert.Spec

open Idealize.ShloMosaic

/-- The value the softmax's running maximum starts from: the word of −∞. -/
def floor : EReal := Ideal.ofBits .f32 0xFF800000#32

/-- The leaky rectifier: v where v ≥ 0, and the slope word (the float nearest 0.2) times v elsewhere. -/
def leaky (v : EReal) : EReal :=
  Scalar.select (Ideal.cmp .oge v (Ideal.ofBits .f32 0x00000000#32)) v (Ideal.ofBits .f32 0x3E4CCCCD#32 * v)

/-- The embedding of node n at hidden unit h: ⟨X n, W h⟩ + b₁ h + b₂ h. -/
def hidden (X W : Fin 64 → Fin 512 → EReal) (b₁ b₂ : Fin 64 → EReal) (n h : Fin 64) : EReal :=
  (∑ d : Fin 512, X n d * W h d) + b₁ h + b₂ h

/-- The score of node n: the rectified embedding against w, plus c. -/
def score (H : Fin 64 → Fin 64 → EReal) (w : Fin 64 → EReal) (c : EReal) (n : Fin 64) : EReal :=
  (∑ h : Fin 64, leaky (H n h) * w h) + c

/-- The largest score (the maximum is taken from −∞, twice, as both programs do). -/
def peak (e : Fin 64 → EReal) : EReal := max floor ((Finset.univ : Finset (Fin 64)).fold max floor e)

/-- The softmax weight of node n. -/
def weight (e : Fin 64 → EReal) (n : Fin 64) : EReal :=
  Ideal.div (Ideal.exp (e n - peak e)) (∑ k : Fin 64, Ideal.exp (e k - peak e))

/-- Feature d of the weighted average of the rows of X. -/
def pooled (a : Fin 64 → EReal) (X : Fin 64 → Fin 512 → EReal) (d : Fin 512) : EReal := ∑ n : Fin 64, a n * X n d

/-- Output o of the final projection: ⟨p, W₃ o⟩ + b₃ o. -/
def project (p : Fin 512 → EReal) (W₃ : Fin 256 → Fin 512 → EReal) (b₃ : Fin 256 → EReal) (o : Fin 256) : EReal :=
  (∑ d : Fin 512, p d * W₃ o d) + b₃ o

/-- The whole row: from the 64 × 512 data matrix and the parameters to the 256 outputs. -/
def row (X W : Fin 64 → Fin 512 → EReal) (b₁ b₂ w : Fin 64 → EReal) (c : EReal)
    (W₃ : Fin 256 → Fin 512 → EReal) (b₃ : Fin 256 → EReal) (o : Fin 256) : EReal :=
  project (pooled (weight (score (hidden X W b₁ b₂) w c)) X) W₃ b₃ o

/-- The whole result before the final exchange of its two leading axes: at (b, t, o), output o of the row function of
    the 64 × 512 slice (b, t) of the data. -/
def whole (a0 : (⟨4, ![32, 32, 64, 512]⟩ : Shape).Idx → EReal) (a1 : (⟨2, ![64, 512]⟩ : Shape).Idx → EReal)
    (a2 a3 : (⟨1, ![64]⟩ : Shape).Idx → EReal) (a4 : (⟨2, ![1, 64]⟩ : Shape).Idx → EReal) (a5 : (⟨1, ![1]⟩ : Shape).Idx → EReal)
    (a6 : (⟨2, ![256, 512]⟩ : Shape).Idx → EReal) (a7 : (⟨1, ![256]⟩ : Shape).Idx → EReal) :
    (⟨3, ![32, 32, 256]⟩ : Shape).Idx → EReal := fun i =>
  row (fun n d => a0 (ValueIdx.ix4 (i 0) (i 1) n d)) (fun h d => a1 (ValueIdx.ix2 h d)) (fun h => a2 (ValueIdx.ix1 h))
    (fun h => a3 (ValueIdx.ix1 h)) (fun h => a4 (ValueIdx.ix2 (0 : Fin 1) h)) (a5 (ValueIdx.ix1 (0 : Fin 1)))
    (fun o d => a6 (ValueIdx.ix2 o d)) (fun o => a7 (ValueIdx.ix1 o)) (i 2)

end Cert.Spec

end
-- ==== Proof.LibMatmulRowsByRows.lean ====
/-
  A matrix product "rows by rows", read at an entry.

  The product of an [m, k] matrix A with an [n, k] matrix B that contracts the SECOND axis of both (A · Bᵀ), accumulated
  into the zero matrix, has at entry (a, b) the sum over the k contracted positions c of A(a, c) · B(b, c). At the
  ideal values the product is the exact sum, so nothing of a chunking or an order of accumulation is left in it.
-/
import Idealize.ShloMosaic.PureOps.Ideal.Laws
import Idealize.ShloMosaic.Lib.ValueIdx

noncomputable section

namespace Idealize.ShloMosaic.ValueIdx

open Idealize.ShloMosaic

/-- A `tpu.matmul` of `[m, k]` by `[n, k]`, both contracting axis 1, into the zero accumulator: entry `(a, b)` is
    `∑ c, A (a, c) * B (b, c)`. `w` is the dimension record's well-formedness, which a program states. -/
theorem matmul_rows_rows_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Idealize.ShloMosaic.ValueIdx

end
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibLaneMax.lean ====
/-
  The maximum along the rows of a matrix, read at a row.

  Taking the maximum of an [a, b] matrix over its second axis, started from an accumulator word, leaves a vector of
  length a whose entry i is the maximum of that word's value and the b entries of row i — the fold of `max` over the
  row's coordinates. The general statement names the entries through the index "entry i with coordinate k inserted
  on the reduced axis"; for a matrix that index is (i, k). (The companion for a sum is `multiReduction_add_rows_apply`.)
-/
import proofs.«173493_j9594956939719_1_alg».proof.Proof.LibLaneSum

namespace Idealize.ShloMosaic.ValueIdx

open Idealize.ShloMosaic

/-- The maximum of an `[a, b]` matrix over axis 1, at the exact extended reals, read at row `i`: the fold of `max`
    from the accumulator's value over that row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits (F := Ideal) φ acc) (fun c => src (ix2 i c)) := by
  refine (Ideal.multiReduction_maximumf_single src acc h hφ hacc (ix1 i)).trans ?_
  exact congrArg (fun f => (Finset.univ : Finset (Fin b)).fold max (FloatOps.ofBits (F := Ideal) φ acc) f)
    (funext fun c => congrArg src (reduces_rows_lift h i c))

end Idealize.ShloMosaic.ValueIdx
-- ==== Proof.LibMiddleAxis.lean ====
/-
  The middle axis of a rank-3 array.

  Two readings at an index given by coordinates. (1) Summing an [a, b, c] array over its middle axis leaves an [a, c]
  matrix whose entry (i, l) is the sum over the b middle coordinates d of the entries (i, d, l). (2) Regrouping the two
  inner axes of an [a, b₂, c] array as [a, b, c₂] (with b₂ · c = b · c₂) keeps every entry at its row-major position: inside
  row n, the entry at inner position d · c + e of the source is the entry at inner position d' · c₂ + l of the result.
-/
import Idealize.ShloMosaic.PureOps.Ideal.Laws
import Idealize.ShloMosaic.Lib.ValueIdx
import Idealize.ShloMosaic.Lib.Pipeline.Value

open scoped BigOperators

namespace Idealize.ShloMosaic.ValueIdx

open Idealize.ShloMosaic

/-- Inserting coordinate `k` on axis 1 over the matrix index `(i, l)` gives the rank-3 index `(i, k, l)`. -/
theorem reduces_middle_lift {a b c : ℕ} (h : (⟨3, ![a, b, c]⟩ : Shape).Reduces [1] ⟨2, ![a, c]⟩) (i : Fin a) (l : Fin c)
    (k : Fin b) : h.lift (ix2 i l) k = ix3 i k l := by
  funext ax; apply Fin.ext
  show h.liftVal (ix2 i l) k.val ax = (ix3 i k l ax).val
  unfold Shape.Reduces.liftVal
  match ax with
  | ⟨0, _⟩ => rfl
  | ⟨1, _⟩ => rfl
  | ⟨2, _⟩ => rfl

/-- The sum of an `[a, b, c]` array over axis 1, at the exact extended reals, read at `(i, l)`: `∑ d, src (i, d, l)`. -/
theorem multiReduction_add_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (l : Fin c) :
    multiReduction .add [1] ⟨2, ![a, c]⟩ src acc h hφ hacc (ix2 i l) = ∑ d : Fin b, src (ix3 i d l) := by
  refine (Ideal.multiReduction_add_single src acc h hφ hacc (ix2 i l)).trans ?_
  exact Finset.sum_congr rfl fun d _ => congrArg src (reduces_middle_lift h i l d)

variable {α : Type}

/-- An `[a, b₂, c]` array regrouped as `[a, b, c₂]` reads, at `(n, d', l)`, the operand at `(n, d, e)` whenever the two
    inner positions agree, `d · c + e = d' · c₂ + l`. -/
theorem shapeCast_regroup_inner_apply {a b₂ c b c₂ : ℕ} (x : (⟨3, ![a, b₂, c]⟩ : Shape).Idx → α)
    (h : (⟨3, ![a, b₂, c]⟩ : Shape).ShapeCasts ⟨3, ![a, b, c₂]⟩) (hbc : b₂ * c = b * c₂)
    (n : Fin a) (d : Fin b₂) (e : Fin c) (d' : Fin b) (l : Fin c₂) (hk : d.val * c + e.val = d'.val * c₂ + l.val) :
    shapeCast ⟨3, ![a, b, c₂]⟩ x h (ix3 n d' l) = x (ix3 n d e) :=
  shapeCast_apply x h _ _ (by
    rw [Shape.rowMajor_val_three, Shape.rowMajor_val_three]
    show (n.val * b₂ + d.val) * c + e.val = (n.val * b + d'.val) * c₂ + l.val
    have e1 : (n.val * b₂ + d.val) * c + e.val = n.val * (b₂ * c) + (d.val * c + e.val) := by ring
    rw [e1, hbc, hk]; ring)

end Idealize.ShloMosaic.ValueIdx
-- ==== Proof.LibFlattenCasts.lean ====
import Idealize.ShloMosaic.Lib.Pipeline.Value
import Idealize.ShloMosaic.Lib.ValueIdx

/-!
# Shape casts that merge, split or drop axes, read at an index given by coordinates

A rank-3 array `[a, b, c]` viewed as the matrix `[a·b, c]` (its two leading axes merged) and back, an `[a, 1, b]`
array viewed as the matrix `[a, b]` (its middle unit axis dropped), and a vector `[a]` viewed as `[1, 1, a]`: each
reads the operand at the index with the same row-major position. These are the forms a batched matrix product
`x.reshape(a·b, c) @ w`, reshaped back, and a bias `v[None, None, :]` are spelt with.
-/

namespace Idealize.ShloMosaic.ValueIdx

open Idealize.ShloMosaic

variable {α : Type}

/-- An `[a, b, c]` array cast to `[n, c]` reads, at `(R, j)` with `R = p·b + r`, the operand at `(p, r, j)`: both sit at
    row-major position `(p·b + r)·c + j`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (r : Fin b) (j : Fin c) (R : Fin n)
    (hR : R.val = p.val * b + r.val) :
    shapeCast ⟨2, ![n, c]⟩ x h (ix2 R j) = x (ix3 p r j) :=
  shapeCast_apply x h _ _ (by
    rw [Shape.rowMajor_val_three, Shape.rowMajor_val_two]
    show (p.val * b + r.val) * c + j.val = R.val * c + j.val
    rw [hR])

/-- An `[n, c]` matrix cast to `[a, b, c]` reads, at `(p, r, j)`, the operand at `(R, j)` with `R = p·b + r`. -/
theorem shapeCast_nc_abc_apply {a b c n : ℕ} (x : (⟨2, ![n, c]⟩ : Shape).Idx → α)
    (h : (⟨2, ![n, c]⟩ : Shape).ShapeCasts ⟨3, ![a, b, c]⟩) (p : Fin a) (r : Fin b) (j : Fin c) (R : Fin n)
    (hR : R.val = p.val * b + r.val) :
    shapeCast ⟨3, ![a, b, c]⟩ x h (ix3 p r j) = x (ix2 R j) :=
  shapeCast_apply x h _ _ (by
    rw [Shape.rowMajor_val_three, Shape.rowMajor_val_two]
    show R.val * c + j.val = (p.val * b + r.val) * c + j.val
    rw [hR])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A vector `[a]` cast to `[1, 1, a]` reads, at `(u, w, j)`, the operand at `j`. -/
theorem shapeCast_a_11a_apply {a : ℕ} (x : (⟨1, ![a]⟩ : Shape).Idx → α)
    (h : (⟨1, ![a]⟩ : Shape).ShapeCasts ⟨3, ![1, 1, a]⟩) (u w : Fin 1) (j : Fin a) :
    shapeCast ⟨3, ![1, 1, a]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * a + j.val
    rw [hu, hw]
    simp)

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibLastAxis3.lean ====
/-
  Rank-3 arrays reduced along their LAST axis and spread back over it, read at an index given by coordinates:
  a `[a,b]` array cast to `[a,b,1]`, an `[a,b,1]` array broadcast to `[a,b,c]`, and the three reductions of an
  `[a,b,c]` array over axis 2 at the exact extended reals — the vector unit's maximum and sum, and the host's
  maximum — each as a fold or a sum over the last coordinate.
-/
import Idealize.ShloMosaic.PureOps.Ideal.Laws
import Idealize.ShloMosaic.Lib.Pipeline.Value
import Idealize.ShloMosaic.Lib.ValueIdx

noncomputable section

namespace Idealize.ShloMosaic.LastAxis3

open Idealize.ShloMosaic Idealize.ShloMosaic.ValueIdx

variable {α : Type}

/-- An `[a,b]` array cast to `[a,b,1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a,b,1]` array broadcast to `[a,b,c]` reads, at `(i, j, r)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (r : Fin c) :
    broadcastTo ⟨3, ![a, b, c]⟩ v h (ix3 i j r) = v (ix3 i j (0 : Fin 1)) := by
  refine broadcastTo_apply v h (ix3 i j r) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The index a reduction over axis 2 inserts the coordinate `k` into: `(i, j)` becomes `(i, j, k)`. -/
theorem lift_last {a b c : ℕ} (h : (⟨3, ![a, b, c]⟩ : Shape).Reduces [2] ⟨2, ![a, b]⟩) (i : Fin a) (j : Fin b) (k : Fin c) :
    h.lift (ix2 i j) k = ix3 i j k :=
  funext fun ax => Fin.ext (by
    match ax with
    | ⟨0, _⟩ => rfl
    | ⟨1, _⟩ => rfl
    | ⟨2, _⟩ => rfl)

variable {φ : FTy}

/-- The vector unit's sum of an `[a,b,c]` array over its last axis, at `(i, j)`: the sum over `k` of the source at `(i, j, k)`. -/
theorem multiReduction_add_last_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  rw [Ideal.multiReduction_add_single]
  exact Finset.sum_congr rfl fun k _ => congrArg src (lift_last h i j k)

/-- The vector unit's maximum of an `[a,b,c]` array over its last axis, at `(i, j)`: the fold of `max`, from the accumulator
    word's value, over `k` of the source at `(i, j, k)`. -/
theorem multiReduction_maximumf_last_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) := by
  rw [Ideal.multiReduction_maximumf_single]
  have e : src ∘ h.lift (ix2 i j) = fun k => src (ix3 i j k) := funext fun k => congrArg src (lift_last h i j k)
  rw [e]
  rfl

/-- The host's maximum of an `[a,b,c]` array over its last axis, at `(i, j)`: the fold of `max`, from the initial value, over
    `k` of the operand at `(i, j, k)`. -/
theorem hostReduce_maximumf_last_apply {a b c : ℕ} {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := φ)) x init h' hu (ix2 i j)
      = (Finset.univ : Finset (Fin c)).fold max (init (Shape.Idx.first hu)) (fun k => x (ix3 i j k)) := by
  rw [Host.reduce_eq_fold_single (FloatOps.maximumf (F := Ideal) (φ := φ)) x init h' h hu]
  have e : x ∘ h.lift (ix2 i j) = fun k => x (ix3 i j k) := funext fun k => congrArg x (lift_last h i j k)
  rw [e]
  rfl

end Idealize.ShloMosaic.LastAxis3

end
-- ==== Proof.KernelBody.lean ====
/-
  The kernel body's stored value, read at an index.

  At one grid point the body holds a 32 × 64 × 512 block of the data (32 time steps of one batch entry) and the whole of
  every parameter. It flattens the block to 2048 rows, embeds them with one matrix product, rectifies, scores each row,
  regroups the 2048 scores as 32 × 64, takes the softmax along the 64 nodes of each time step, averages the block's rows
  with those weights and projects the result. Here each of these steps is named, read at an index given by
  coordinates, and the stored value at (0, t, o) is shown to be output o of the row function of time step t's slice.
-/
import proofs.«173493_j9594956939719_1_alg».proof.Proof.Gen.KernelIdeal.Skeleton
import proofs.«173493_j9594956939719_1_alg».proof.Proof.Spec
import proofs.«173493_j9594956939719_1_alg».proof.Proof.LibMatmulRowsByRows
import proofs.«173493_j9594956939719_1_alg».proof.Proof.LibLaneSum
import proofs.«173493_j9594956939719_1_alg».proof.Proof.LibLaneMax
import proofs.«173493_j9594956939719_1_alg».proof.Proof.LibMiddleAxis
import proofs.«173493_j9594956939719_1_alg».proof.Proof.LibFlattenCasts
import proofs.«173493_j9594956939719_1_alg».proof.Proof.LibColumnCast
import proofs.«173493_j9594956939719_1_alg».proof.Proof.LibColumnBroadcast
import proofs.«173493_j9594956939719_1_alg».proof.Proof.LibLastAxis3
import Idealize.ShloMosaic.Lib.ValueLayout
import Idealize.ShloMosaic.Lib.Pipeline.Value
import Idealize.ShloMosaic.PureOps.Ideal.Laws

open scoped BigOperators

noncomputable section

namespace Cert.KernelIdeal.Body

open Idealize.ShloMosaic Idealize.ShloMosaic.ValueIdx Idealize.ShloMosaic.LastAxis3 Cert.KernelIdeal Cert.KernelIdeal.Facts₀

variable [Facts]

/-! ## The body's arithmetic cut into five stages

The body's one stored value is a composition of five steps; each is named here with the operations the program
prints for it, so that each can be read at an index by itself. -/

/-- The 2048 × 64 embeddings of the 32 · 64 rows of the block: the product with the embedding matrix, plus both biases. -/
def embed (v0 : FVec Ideal S1x32x64x512 .f32) (v4 : FVec Ideal S64x512 .f32) (v7 v8 : FVec Ideal S64 .f32) : FVec Ideal S2048x64 .f32 :=
  have v1 : FVec Ideal S32x64x512 .f32 := shapeCast S32x64x512 v0 shapeCasts_S1x32x64x512_S32x64x512
  have v2 : FVec Ideal S32x64x512 .bf16 := truncf .bf16 v1 bitsLt_bf16_f32
  have v3 : FVec Ideal S2048x512 .bf16 := shapeCast S2048x512 v2 shapeCasts_S32x64x512_S2048x512
  have v5 : FVec Ideal S64x512 .bf16 := truncf .bf16 v4 bitsLt_bf16_f32
  have cst : FVec Ideal S2048x64 .f32 := constant S2048x64 .f32 0x00000000#32
  have v6 : FVec Ideal S2048x64 .f32 := matmul dot_S2048x512_S64x512_S2048x64_1_1_0_0_n_n none v3 v5 cst
  have v9 : FVec Ideal S1x64 .f32 := shapeCast S1x64 v7 shapeCasts_S64_S1x64
  have v10 : FVec Ideal S2048x64 .f32 := broadcastTo S2048x64 v9 broadcasts_S1x64_S2048x64
  have v11 : FVec Ideal S2048x64 .f32 := addf v6 v10
  have v12 : FVec Ideal S1x64 .f32 := shapeCast S1x64 v8 shapeCasts_S64_S1x64
  have v13 : FVec Ideal S2048x64 .f32 := broadcastTo S2048x64 v12 broadcasts_S1x64_S2048x64
  have v14 : FVec Ideal S2048x64 .f32 := addf v11 v13
  v14

/-- The 32 × 64 scores: the rectified embeddings against the score vector, plus the offset, regrouped by time step. -/
def scores (v14 : FVec Ideal S2048x64 .f32) (v20 : FVec Ideal S1x64 .f32) (v21 : FVec Ideal S1 .f32) : FVec Ideal S32x64 .f32 :=
  have cst_7 : Ideal .f32 := Scalar.ofBits .f32 0x3E4CCCCD#32
  have cst_8 : Ideal .f32 := Scalar.ofBits .f32 0x00000000#32
  have v15 : FVec Ideal S2048x64 .f32 := broadcast S2048x64 cst_8
  have v16 : IVec S2048x64 1 := cmpf .oge v14 v15
  have v17 : FVec Ideal S2048x64 .f32 := broadcast S2048x64 cst_7
  have v18 : FVec Ideal S2048x64 .f32 := mulf v17 v14
  have v19 : FVec Ideal S2048x64 .f32 := select v16 v14 v18
  have cst_12 : FVec Ideal S2048x1 .f32 := constant S2048x1 .f32 0x00000000#32
  have v22 : FVec Ideal S2048x1 .f32 := matmul dot_S2048x64_S1x64_S2048x1_1_1_0_0_n_n none v19 v20 cst_12
  have v23 : FVec Ideal S1x1 .f32 := shapeCast S1x1 v21 shapeCasts_S1_S1x1
  have v24 : FVec Ideal S2048x1 .f32 := broadcastTo S2048x1 v23 broadcasts_S1x1_S2048x1
  have v25 : FVec Ideal S2048x1 .f32 := addf v22 v24
  have v26 : FVec Ideal S32x64 .f32 := shapeCast S32x64 v25 shapeCasts_S2048x1_S32x64
  v26

/-- The largest score of each time step (the maximum taken from −∞, and once more against −∞). -/
def crest (v26 : FVec Ideal S32x64 .f32) : FVec Ideal S32 .f32 :=
  have v27 : FVec Ideal S32 .f32 := multiReduction .maximumf [1] S32 v26 0xFF800000#32 reduces_S32x64_S32 (.inl rfl) rfl
  have cst_14 : Ideal .f32 := Scalar.ofBits .f32 0xFF800000#32
  have v28 : FVec Ideal S32 .f32 := broadcast S32 cst_14
  have v29 : FVec Ideal S32 .f32 := maximumf v28 v27
  v29

/-- The exponentials of the scores less their time step's largest. -/
def lifted (v26 : FVec Ideal S32x64 .f32) (v29 : FVec Ideal S32 .f32) : FVec Ideal S32x64 .f32 :=
  have v30 : FVec Ideal S32x1 .f32 := shapeCast S32x1 v29 shapeCasts_S32_S32x1
  have v31 : FVec Ideal S32x64 .f32 := broadcastTo S32x64 v30 broadcasts_S32x1_S32x64
  have v32 : FVec Ideal S32x64 .f32 := subf v26 v31
  have v33 : FVec Ideal S32x64 .f32 := exp v32
  v33

/-- Each exponential divided by the sum over its time step's 64 nodes. -/
def normed (v33 : FVec Ideal S32x64 .f32) : FVec Ideal S32x64 .f32 :=
  have v34 : FVec Ideal S32 .f32 := multiReduction .add [1] S32 v33 0x00000000#32 reduces_S32x64_S32 (.inl rfl) rfl
  have v35 : FVec Ideal S32x1 .f32 := shapeCast S32x1 v34 shapeCasts_S32_S32x1
  have v36 : FVec Ideal S32x64 .f32 := broadcastTo S32x64 v35 broadcasts_S32x1_S32x64
  have v37 : FVec Ideal S32x64 .f32 := divf v33 v36
  v37

/-- The 32 × 64 softmax weights of the scores, along each time step's 64 nodes. -/
def weights (v26 : FVec Ideal S32x64 .f32) : FVec Ideal S32x64 .f32 := normed (lifted v26 (crest v26))

/-- Each row of the block scaled by its weight. -/
def scaled (v37 : FVec Ideal S32x64 .f32) (v0 : FVec Ideal S1x32x64x512 .f32) : FVec Ideal S32x64x512 .f32 :=
  have v1 : FVec Ideal S32x64x512 .f32 := shapeCast S32x64x512 v0 shapeCasts_S1x32x64x512_S32x64x512
  have v38 : FVec Ideal S32x64x1 .f32 := shapeCast S32x64x1 v37 shapeCasts_S32x64_S32x64x1
  have v39 : FVec Ideal S32x64x512 .f32 := broadcastTo S32x64x512 v38 broadcasts_S32x64x1_S32x64x512
  have v40 : FVec Ideal S32x64x512 .f32 := mulf v39 v1
  v40

/-- The first payload is the four stages composed. -/
theorem pay2_eq (v0 : FVec Ideal S1x32x64x512 .f32) (v4 : FVec Ideal S64x512 .f32) (v7 v8 : FVec Ideal S64 .f32)
    (v20 : FVec Ideal S1x64 .f32) (v21 : FVec Ideal S1 .f32) :
    Gen.k0_pay2 (F := Ideal) v0 v4 v7 v8 v20 v21 = scaled (weights (scores (embed v0 v4 v7 v8) v20 v21)) v0 := rfl

/-! ## Each stage read at an index -/

/-- Row R = 64 t + n of the embeddings at hidden unit h: the row (t, n) of the block against row h of the embedding matrix,
    plus the two biases at h. -/
theorem embed_apply (v0 : FVec Ideal S1x32x64x512 .f32) (v4 : FVec Ideal S64x512 .f32) (v7 v8 : FVec Ideal S64 .f32)
    (t : Fin 32) (n h : Fin 64) (R : Fin 2048) (hR : R.val = t.val * 64 + n.val) :
    embed v0 v4 v7 v8 (ix2 R h)
      = (∑ d : Fin 512, v0 (ix4 (0 : Fin 1) t n d) * v4 (ix2 h d)) + v7 (ix1 h) + v8 (ix1 h) := by
  unfold embed
  rw [addf_apply, addf_apply, broadcastTo_1b_ab_apply, broadcastTo_1b_ab_apply, shapeCast_a_1a_apply, shapeCast_a_1a_apply]
  refine congrArg (· + v8 (ix1 h)) (congrArg (· + v7 (ix1 h)) ?_)
  refine (matmul_rows_rows_apply dot_S2048x512_S64x512_S2048x64_1_1_0_0_n_n_wf none _ _ R h).trans ?_
  refine Finset.sum_congr rfl fun d _ => ?_
  rw [shapeCast_abc_nc_apply _ _ t n d R hR, truncf_apply, shapeCast_1abc_abc_apply, truncf_apply]

/-- The score at (t, n): the rectified embeddings of row R = 64 t + n against the score vector, plus the offset. -/
theorem scores_apply (v14 : FVec Ideal S2048x64 .f32) (v20 : FVec Ideal S1x64 .f32) (v21 : FVec Ideal S1 .f32)
    (t : Fin 32) (n : Fin 64) (R : Fin 2048) (hR : R.val = t.val * 64 + n.val) :
    scores v14 v20 v21 (ix2 t n)
      = (∑ h : Fin 64, Spec.leaky (v14 (ix2 R h)) * v20 (ix2 (0 : Fin 1) h)) + v21 (ix1 (0 : Fin 1)) := by
  unfold scores
  refine (shapeCast_apply _ _ (ix2 t n) (ix2 R (0 : Fin 1)) ?_).trans ?_
  · rw [Shape.rowMajor_val_two, Shape.rowMajor_val_two]
    show R.val * 1 + 0 = t.val * 64 + n.val
    omega
  rw [addf_apply]
  refine congrArg₂ (· + ·) ?_ ?_
  · refine (matmul_rows_rows_apply dot_S2048x64_S1x64_S2048x1_1_1_0_0_n_n_wf none _ _ R (0 : Fin 1)).trans ?_
    rfl
  · refine (broadcastTo_1b_ab_apply _ _ R (0 : Fin 1)).trans ?_
    exact shapeCast_a_1a_apply _ _ (0 : Fin 1) (0 : Fin 1)

/-- The largest score of time step t. -/
theorem crest_apply (v26 : FVec Ideal S32x64 .f32) (t : Fin 32) :
    crest v26 (ix1 t) = Spec.peak (fun k => v26 (ix2 t k)) := by
  unfold crest
  rw [maximumf_apply]
  refine congrArg₂ max rfl ?_
  exact multiReduction_maximumf_rows_apply v26 _ _ _ _ t

/-- The shifted exponential at (t, n). -/
theorem lifted_apply (v26 : FVec Ideal S32x64 .f32) (v29 : FVec Ideal S32 .f32) (t : Fin 32) (n : Fin 64) :
    lifted v26 v29 (ix2 t n) = Ideal.exp (v26 (ix2 t n) - v29 (ix1 t)) := by
  unfold lifted
  show Ideal.exp (subf v26 _ (ix2 t n)) = _
  rw [subf_apply, broadcastTo_a1_ab_apply, shapeCast_a_a1_apply]

/-- The normalised exponential at (t, n). -/
theorem normed_apply (v33 : FVec Ideal S32x64 .f32) (t : Fin 32) (n : Fin 64) :
    normed v33 (ix2 t n) = Ideal.div (v33 (ix2 t n)) (∑ k : Fin 64, v33 (ix2 t k)) := by
  unfold normed
  rw [divf_apply, broadcastTo_a1_ab_apply, shapeCast_a_a1_apply]
  exact congrArg (Ideal.div (v33 (ix2 t n))) (multiReduction_add_rows_apply v33 _ _ _ _ t)

/-- The softmax weight at (t, n) is the weight function of time step t's scores. -/
theorem weights_apply (v26 : FVec Ideal S32x64 .f32) (t : Fin 32) (n : Fin 64) :
    weights v26 (ix2 t n) = Spec.weight (fun k => v26 (ix2 t k)) n := by
  unfold weights Spec.weight
  rw [normed_apply]
  simp only [lifted_apply, crest_apply]

/-- The scaled block at (t, n, d): the weight of (t, n) times the block's entry. -/
theorem scaled_apply (v37 : FVec Ideal S32x64 .f32) (v0 : FVec Ideal S1x32x64x512 .f32) (t : Fin 32) (n : Fin 64) (d : Fin 512) :
    scaled v37 v0 (ix3 t n d) = v37 (ix2 t n) * v0 (ix4 (0 : Fin 1) t n d) := by
  unfold scaled
  rw [mulf_apply, broadcastTo_ab1_abc_apply, shapeCast_ab_ab1_apply, shapeCast_1abc_abc_apply]

/-- The stored value at (0, t, o): the scaled block summed over the nodes, against row o of the projection, plus its bias. -/
theorem pay1_apply (v40 : FVec Ideal S32x64x512 .f32) (v42 : FVec Ideal S256x512 .f32) (v44 : FVec Ideal S256 .f32)
    (t : Fin 32) (o : Fin 256) :
    Gen.k0_pay1 (F := Ideal) v40 v42 v44 (ix3 (0 : Fin 1) t o)
      = (∑ d : Fin 512, (∑ n : Fin 64, v40 (ix3 t n d)) * v42 (ix2 o d)) + v44 (ix1 o) := by
  unfold Gen.k0_pay1
  rw [shapeCast_ab_1ab_apply, addf_apply, broadcastTo_1b_ab_apply, shapeCast_a_1a_apply]
  refine congrArg (· + v44 (ix1 o)) ?_
  refine (matmul_rows_rows_apply dot_S32x512_S256x512_S32x256_1_1_0_0_n_n_wf none _ _ t o).trans ?_
  refine Finset.sum_congr rfl fun d _ => ?_
  refine congrArg₂ (· * ·) ?_ rfl
  rw [truncf_apply]
  exact multiReduction_add_middle_apply v40 _ _ _ _ t d

/-- Row 64 t + n of the 2048 flattened rows. -/
def flat (t : Fin 32) (n : Fin 64) : Fin 2048 := ⟨t.val * 64 + n.val, by have := t.isLt; have := n.isLt; omega⟩

/-- The body's stored value at (0, t, o) is output o of the row function of time step t's 64 × 512 slice of the block. -/
theorem payload_apply (x0 : FVec Ideal S1x32x64x512 .f32) (x1 : FVec Ideal S64x512 .f32) (x2 x3 : FVec Ideal S64 .f32)
    (x4 : FVec Ideal S1x64 .f32) (x5 : FVec Ideal S1 .f32) (x6 : FVec Ideal S256x512 .f32) (x7 : FVec Ideal S256 .f32)
    (t : Fin 32) (o : Fin 256) :
    Gen.k0_pay1 (F := Ideal) (Gen.k0_pay2 x0 x1 x2 x3 x4 x5) x6 x7 (ix3 (0 : Fin 1) t o)
      = Spec.row (fun n d => x0 (ix4 (0 : Fin 1) t n d)) (fun h d => x1 (ix2 h d)) (fun h => x2 (ix1 h)) (fun h => x3 (ix1 h))
          (fun h => x4 (ix2 (0 : Fin 1) h)) (x5 (ix1 (0 : Fin 1))) (fun o d => x6 (ix2 o d)) (fun o => x7 (ix1 o)) o := by
  rw [pay1_apply, pay2_eq]
  unfold Spec.row Spec.project Spec.pooled
  simp only [scaled_apply, weights_apply]
  have hs : ∀ k : Fin 64, scores (embed x0 x1 x2 x3) x4 x5 (ix2 t k)
      = Spec.score (Spec.hidden (fun n d => x0 (ix4 (0 : Fin 1) t n d)) (fun h d => x1 (ix2 h d)) (fun h => x2 (ix1 h)) (fun h => x3 (ix1 h)))
          (fun h => x4 (ix2 (0 : Fin 1) h)) (x5 (ix1 (0 : Fin 1))) k := by
    intro k
    rw [scores_apply _ _ _ t k (flat t k) rfl]
    unfold Spec.score Spec.hidden
    simp only [embed_apply x0 x1 x2 x3 t k _ (flat t k) rfl]
  simp only [hs]

end Cert.KernelIdeal.Body

end
-- ==== Proof.KernelValue.lean ====
/-
  The kernel's result array as one function of the arguments.

  The grid has 32 points, one per batch entry. At point b the data window holds the slab (b, ·, ·, ·) of the data, every
  parameter window its whole array, and the output window writes back the slab (b, ·, ·) of a 32 × 32 × 256 array: entry
  (b, t, o) is output o of the row function of the data's 64 × 512 slice (b, t). The 32 slabs cover that array, and the
  one host line after the region exchanges its two leading axes.
-/
import proofs.«173493_j9594956939719_1_alg».proof.Proof.Gen.KernelIdeal.Frame
import proofs.«173493_j9594956939719_1_alg».proof.Proof.KernelBody
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the 32 grid points: the data window and the output window sit at block t of their
    leading axis, every parameter window at block zero. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 3) = t.val ∧ win0_8.index t (1 : Fin 3) = 0 ∧ win0_8.index t (2 : Fin 3) = 0 :=
  (by decide +kernel : ∀ t : Fin grid0.N, _)

/-- The grid point as a batch index. -/
def batch (t : Fin cfg0.N) : Fin 32 := ⟨t.val, by have := t.isLt; have h : cfg0.N = 32 := N_0; omega⟩

/-! ## Each window's block at a point, as entries of its array -/

theorem blk0 (c : Dev nD) (t : Fin cfg0.N) (t' : Fin 32) (n : Fin 64) (d : Fin 512) :
    (iblk m c 0 t : Vec Ideal S1x32x64x512 .f32) (ix4 (0 : Fin 1) t' n d) = (V m c main_arg0 : S32x32x64x512.Idx → EReal) (ix4 (batch t) t' n d) := by
  obtain ⟨e0, e1, e2, e3, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 4) * 1 + 1 * 0 = t.val; omega
  | ⟨1, _⟩ => show win0_0.index t (1 : Fin 4) * 32 + 1 * t'.val = t'.val; omega
  | ⟨2, _⟩ => show win0_0.index t (2 : Fin 4) * 64 + 1 * n.val = n.val; omega
  | ⟨3, _⟩ => show win0_0.index t (3 : Fin 4) * 512 + 1 * d.val = d.val; omega

theorem blk1 (c : Dev nD) (t : Fin cfg0.N) (y : S64x512.Idx) :
    (iblk m c 1 t : Vec Ideal S64x512 .f32) y = (V m c main_arg1 : S64x512.Idx → EReal) y := by
  obtain ⟨-, -, -, -, e0, e1, -, -, -, -, -, -, -, -, -, -, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 64 + 1 * (y 0).val = (y 0).val; omega
  | ⟨1, _⟩ => show win0_1.index t (1 : Fin 2) * 512 + 1 * (y 1).val = (y 1).val; omega

theorem blk2 (c : Dev nD) (t : Fin cfg0.N) (y : S64.Idx) :
    (iblk m c 2 t : Vec Ideal S64 .f32) y = (V m c main_arg2 : S64.Idx → EReal) y := by
  obtain ⟨-, -, -, -, -, -, e0, -, -, -, -, -, -, -, -, -, -⟩ := idx_facts t
  unfold iblk
  rw [View.read_apply]
  show V m c main_arg2 _ = V m c main_arg2 _
  refine congrArg (V m c main_arg2) (funext fun a => Fin.ext ?_)
  match a with
  | ⟨0, _⟩ => show win0_2.index t (0 : Fin 1) * 64 + 1 * (y 0).val = (y 0).val; omega

theorem blk3 (c : Dev nD) (t : Fin cfg0.N) (y : S64.Idx) :
    (iblk m c 3 t : Vec Ideal S64 .f32) y = (V m c main_arg3 : S64.Idx → EReal) y := by
  obtain ⟨-, -, -, -, -, -, -, e0, -, -, -, -, -, -, -, -, -⟩ := idx_facts t
  unfold iblk
  rw [View.read_apply]
  show V m c main_arg3 _ = V m c main_arg3 _
  refine congrArg (V m c main_arg3) (funext fun a => Fin.ext ?_)
  match a with
  | ⟨0, _⟩ => show win0_3.index t (0 : Fin 1) * 64 + 1 * (y 0).val = (y 0).val; omega

theorem blk4 (c : Dev nD) (t : Fin cfg0.N) (y : S1x64.Idx) :
    (iblk m c 4 t : Vec Ideal S1x64 .f32) y = (V m c main_arg4 : S1x64.Idx → EReal) y := by
  obtain ⟨-, -, -, -, -, -, -, -, e0, e1, -, -, -, -, -, -, -⟩ := idx_facts t
  unfold iblk
  rw [View.read_apply]
  show V m c main_arg4 _ = V m c main_arg4 _
  refine congrArg (V m c main_arg4) (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

theorem blk5 (c : Dev nD) (t : Fin cfg0.N) (y : S1.Idx) :
    (iblk m c 5 t : Vec Ideal S1 .f32) y = (V m c main_arg5 : S1.Idx → EReal) y := by
  obtain ⟨-, -, -, -, -, -, -, -, -, -, e0, -, -, -, -, -, -⟩ := idx_facts t
  unfold iblk
  rw [View.read_apply]
  show V m c main_arg5 _ = V m c main_arg5 _
  refine congrArg (V m c main_arg5) (funext fun a => Fin.ext ?_)
  match a with
  | ⟨0, _⟩ => show win0_5.index t (0 : Fin 1) * 1 + 1 * (y 0).val = (y 0).val; omega

theorem blk6 (c : Dev nD) (t : Fin cfg0.N) (y : S256x512.Idx) :
    (iblk m c 6 t : Vec Ideal S256x512 .f32) y = (V m c main_arg6 : S256x512.Idx → EReal) y := by
  obtain ⟨-, -, -, -, -, -, -, -, -, -, -, e0, e1, -, -, -, -⟩ := idx_facts t
  unfold iblk
  rw [View.read_apply]
  show V m c main_arg6 _ = V m c main_arg6 _
  refine congrArg (V m c main_arg6) (funext fun a => Fin.ext ?_)
  match a with
  | ⟨0, _⟩ => show win0_6.index t (0 : Fin 2) * 256 + 1 * (y 0).val = (y 0).val; omega
  | ⟨1, _⟩ => show win0_6.index t (1 : Fin 2) * 512 + 1 * (y 1).val = (y 1).val; omega

theorem blk7 (c : Dev nD) (t : Fin cfg0.N) (y : S256.Idx) :
    (iblk m c 7 t : Vec Ideal S256 .f32) y = (V m c main_arg7 : S256.Idx → EReal) y := by
  obtain ⟨-, -, -, -, -, -, -, -, -, -, -, -, -, e0, -, -, -⟩ := idx_facts t
  unfold iblk
  rw [View.read_apply]
  show V m c main_arg7 _ = V m c main_arg7 _
  refine congrArg (V m c main_arg7) (funext fun a => Fin.ext ?_)
  match a with
  | ⟨0, _⟩ => show win0_7.index t (0 : Fin 1) * 256 + 1 * (y 0).val = (y 0).val; omega

/-- Where the output window's block at point t sits in its array: entry (0, t', o) of the block is entry (t, t', o). -/
theorem emb_out (t : Fin cfg0.N) (t' : Fin 32) (o : Fin 256) :
    ((cfg0.win 8).blk t).view.emb (ix3 (0 : Fin 1) t' o) = (ix3 (batch t) t' o : S32x32x256.Idx) := by
  obtain ⟨-, -, -, -, -, -, -, -, -, -, -, -, -, -, e0, e1, e2⟩ := idx_facts t
  refine funext fun a => Fin.ext ?_
  match a with
  | ⟨0, _⟩ => show win0_8.index t (0 : Fin 3) * 1 + 1 * 0 = t.val; omega
  | ⟨1, _⟩ => show win0_8.index t (1 : Fin 3) * 32 + 1 * t'.val = t'.val; omega
  | ⟨2, _⟩ => show win0_8.index t (2 : Fin 3) * 256 + 1 * o.val = o.val; omega

/-- The array the region leaves, before the host exchanges its two leading axes: the row function of every (batch, time) slice. -/
abbrev pooledAll (c : Dev nD) : S32x32x256.Idx → EReal :=
  Spec.whole (V m c main_arg0) (V m c main_arg1) (V m c main_arg2) (V m c main_arg3) (V m c main_arg4) (V m c main_arg5)
    (V m c main_arg6) (V m c main_arg7)

/-- What point t writes back is block t of that array. -/
theorem flushed_eq (c : Dev nD) (t : Fin cfg0.N) :
    (dats m 0 c).flushed 8 t = ((cfg0.win 8).blk t).view.read (Elt Ideal) (pooledAll m c) := by
  show (cfg0.win 8).cut (grid0.coords t) ((dats m 0 c).after 8 t) = _
  rw [after0_8]
  unfold out0_8
  rw [View.canon_unit_zero hz3]
  simp only [View.ld_unit_zero (S := S1x32x64x512) hz4, View.ld_unit_zero (S := S64x512) hz2, View.ld_unit_zero (S := S64) hz1,
    View.ld_unit_zero (S := S1x64) hz2, View.ld_unit_zero (S := S1) hz1, View.ld_unit_zero (S := S256x512) hz2,
    View.ld_unit_zero (S := S256) hz1]
  refine funext fun (j : S1x32x256.Idx) => ?_
  obtain ⟨u, t', o, rfl⟩ : ∃ (u : Fin 1) (t' : Fin 32) (o : Fin 256), j = ix3 u t' o := ⟨j 0, j 1, j 2, eq_ix3 j⟩
  obtain rfl : u = 0 := Subsingleton.elim _ _
  show (k0_pay1 (F := Ideal) (k0_pay2 (iblk m c 0 t) (iblk m c 1 t) (iblk m c 2 t) (iblk m c 3 t) (iblk m c 4 t) (iblk m c 5 t))
      (iblk m c 6 t) (iblk m c 7 t) : Vec Ideal S1x32x256 .f32) (ix3 (0 : Fin 1) t' o)
    = pooledAll m c (((cfg0.win 8).blk t).view.emb (ix3 (0 : Fin 1) t' o))
  rw [emb_out]
  refine (Body.payload_apply (iblk m c 0 t) (iblk m c 1 t) (iblk m c 2 t) (iblk m c 3 t) (iblk m c 4 t) (iblk m c 5 t)
    (iblk m c 6 t) (iblk m c 7 t) t' o).trans ?_
  simp only [blk0 m c t, blk1 m c t, blk2 m c t, blk3 m c t, blk4 m c t, blk5 m c t, blk6 m c t, blk7 m c t]
  rfl

/-- An index of the output array lies in point t's block iff each coordinate is in the block's range on its axis. -/
theorem mem_blk (t : Fin cfg0.N) (i : S32x32x256.Idx) :
    i ∈ ((cfg0.win 8).blk t).view.set ↔ ∀ a : Fin 3, win0_8.index t a * S1x32x256.size a ≤ (i a).val ∧ (i a).val < win0_8.index t a * S1x32x256.size a + S1x32x256.size a := by
  show i ∈ ((View.whole main_v0).slice (win0_8.rect t)).set ↔ _
  rw [View.set_slice_whole, Rect.mem_set_unit]
  exact Iff.rfl

/-- The 32 blocks cover the array (entry (b, t', o) is in the block of point b), so the array the region leaves is the
    row function of every slice. -/
theorem final (c : Dev nD) : (dats m 0 c).arrAt 8 cfg0.N = pooledAll m c :=
  (dats m 0 c).arrAt_eq_of_cover 8 (pooledAll m c) (fun t _ => flushed_eq m c t) fun i => by
    have hi0 : (i 0).val < 32 := (i 0).isLt
    have hi1 : (i 1).val < 32 := (i 1).isLt
    have hi2 : (i 2).val < 256 := (i 2).isLt
    have hN : cfg0.N = 32 := N_0
    obtain ⟨t, ht⟩ : ∃ t : Fin cfg0.N, t.val = (i 0).val := ⟨⟨(i 0).val, by omega⟩, rfl⟩
    obtain ⟨-, -, -, -, -, -, -, -, -, -, -, -, -, -, e0, e1, e2⟩ := idx_facts t
    refine ⟨t, flush0_8 t, ?_⟩
    rw [mem_blk]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 32 ≤ (i 1).val ∧ (i 1).val < win0_8.index t (1 : Fin 3) * 32 + 32; omega
    | ⟨2, _⟩ => show win0_8.index t (2 : Fin 3) * 256 ≤ (i 2).val ∧ (i 2).val < win0_8.index t (2 : Fin 3) * 256 + 256; omega

/-- The result buffer is none of the region's arrays. -/
theorem mem_rest : main_v1 ∈ Pipeline.restRefs sig spec0 := by decide

/-- The host line after the region exchanges the two leading axes of the array the region leaves. -/
theorem tail_eq (c : Dev nD) :
    Pipeline.afterTail₀ cfgs (dats m) 0 (V0 m) [hostOps1] c main_v1
      = transpose S32x32x256 [1, 0, 2] (pooledAll m c) transposes_S32x32x256_S32x32x256_1_0_2 := by
  unfold Pipeline.afterTail₀
  show StableHlo.after hostOps1 _ (Proc.devRef .tc main_v1) = _
  after_results
  exact congrArg (fun x => transpose S32x32x256 [1, 0, 2] x transposes_S32x32x256_S32x32x256_1_0_2)
    ((Pipeline.withArrays_arr spec0 launch0.win.arr_inj c _ _ 8).trans (final m c))

/-- The kernel's run, read: the result buffer ends at the exchanged array of row functions of the arguments, the arguments
    unchanged. -/
theorem run : θ_run defs (onTc (τ := τ) (main (F := Ideal))) ⟨m, fun _ => 0, ρ⟩ (fun r => ∀ c : Dev nD,
      r.2.mem ((c.tc : Thread nD τ).loc main_v1) = transpose S32x32x256 [1, 0, 2] (pooledAll m c) transposes_S32x32x256_S32x32x256_1_0_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).2 main_v1 mem_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelIdeal.Whole

end
-- ==== Proof.RefStages.lean ====
/-
  The reference program's host operations as functions of their operands, one per named value.

  The reference is a straight line of tensor operations. Each definition below is what one operation (or a short
  run of operations ending in a value that is read more than once) computes from the EARLIER values it reads, at
  the ideal instance, where a float is an extended real and every operation is its textbook one. `result` is their
  composition: the output tensor as a function of the eight argument tensors.
-/
import proofs.«173493_j9594956939719_1_alg».proof.ReferenceIdeal
import Idealize.ShloMosaic.PureOps.Ideal

noncomputable section

namespace Cert.ReferenceIdeal.Stages

open Idealize.ShloMosaic Idealize.SL.Sem
open Cert.ReferenceIdeal Cert.ReferenceIdeal.Facts₀ Cert.ReferenceIdeal.Facts

variable [Facts]

/-- A float tensor of shape `s` at the ideal instance: an extended real at every multi-index. -/
abbrev Arr (s : Shape) : Type := s.Idx → EReal

example (s : Shape) : Arr s = (⟨s, .f32⟩ : BufTy).Contents (Elt Ideal) := rfl

/-- %0: the argument's elements in row-major order at shape 1024 × 64 × 512. -/
def val_v0 (a0 : Arr S32x32x64x512) : Arr S1024x64x512 :=
  fun i => shapeCast S1024x64x512 a0 shapeCasts_S32x32x64x512_S1024x64x512 i

/-- %1: the contraction of %0's last axis with the second argument's last axis. -/
def val_v1 (v0 : Arr S1024x64x512) (a1 : Arr S64x512) : Arr S1024x64x64 :=
  Host.dotGeneral (F := Ideal) (φ₁ := .f32) (φ₂ := .f32) dot_S1024x64x512_S64x512_S1024x64x64_2_1_01_0_n_n none v0 a1

/-- %3 (and %6): a vector of 64 laid along the last axis of 1024 × 64 × 64, in two steps. -/
def val_v3 (a : Arr S64) : Arr S1024x64x64 :=
  broadcastInDim S1024x64x64 ![0, 1, 2] bcast_S1x1x64_S1024x64x64_0_1_2 (broadcastInDim S1x1x64 ![2] bcast_S64_S1x1x64_2 a)

/-- %7: %1 plus the two bias vectors. -/
def val_v7 (v1 : Arr S1024x64x64) (a2 a3 : Arr S64) : Arr S1024x64x64 :=
  addf (F := Ideal) (φ := .f32) (addf (F := Ideal) (φ := .f32) v1 (val_v3 a2)) (val_v3 a3)

/-- %8: the leaky rectifier of %7 — %7 where it is at least zero, the slope constant times %7 elsewhere. -/
def val_v8 (v7 : Arr S1024x64x64) : Arr S1024x64x64 :=
  select
    (cmpf (F := Ideal) (φ := .f32) .oge v7
      (broadcastInDim S1024x64x64 ![] bcast_S_S1024x64x64 (constant (F := Ideal) S_ .f32 0x00000000#32)))
    v7
    (mulf (F := Ideal) (φ := .f32)
      (broadcastInDim S1024x64x64 ![] bcast_S_S1024x64x64 (id (constant (F := Ideal) S_ .f32 0x3E4CCCCD#32)))
      v7)

/-- %11: the one-element argument at every index of 1024 × 64 × 1, in two steps. -/
def val_v11 (a5 : Arr S1) : Arr S1024x64x1 :=
  broadcastInDim S1024x64x1 ![0, 1, 2] bcast_S1x1x1_S1024x64x1_0_1_2 (broadcastInDim S1x1x1 ![2] bcast_S1_S1x1x1_2 a5)

/-- %12: the scores — %8's last axis contracted with the weight row, plus the offset. -/
def val_v12 (v8 : Arr S1024x64x64) (a4 : Arr S1x64) (a5 : Arr S1) : Arr S1024x64x1 :=
  addf (F := Ideal) (φ := .f32)
    (Host.dotGeneral (F := Ideal) (φ₁ := .f32) (φ₂ := .f32) dot_S1024x64x64_S1x64_S1024x64x1_2_1_01_0_n_n none v8 a4)
    (val_v11 a5)

/-- %15: the largest score along the middle axis, the maximum taken from −∞ and once more against −∞. -/
def val_v15 (v12 : Arr S1024x64x1) : Arr S1024x1 :=
  maximumf (F := Ideal) (φ := .f32)
    (broadcastInDim S1024x1 ![] bcast_S_S1024x1 (constant (F := Ideal) S_ .f32 0xFF800000#32))
    (Host.reduce (FloatOps.maximumf (F := Ideal) (φ := .f32)) v12 (constant (F := Ideal) S_ .f32 0xFF800000#32)
      reducesTo_S1024x64x1_S1024x1_d1 h_S_)

/-- %17 (and %22): a 1024 × 1 tensor repeated along the middle axis of 1024 × 64 × 1, in two steps. -/
def val_v17 (v : Arr S1024x1) : Arr S1024x64x1 :=
  broadcastInDim S1024x64x1 ![0, 1, 2] bcast_S1024x1x1_S1024x64x1_0_1_2 (broadcastInDim S1024x1x1 ![0, 2] bcast_S1024x1_S1024x1x1_0_2 v)

/-- %19: the exponential of each score less the largest. -/
def val_v19 (v12 : Arr S1024x64x1) (v15 : Arr S1024x1) : Arr S1024x64x1 :=
  Host.exp (F := Ideal) (φ := .f32) (subf (F := Ideal) (φ := .f32) v12 (val_v17 v15))

/-- %20: the sum of the exponentials along the middle axis. -/
def val_v20 (v19 : Arr S1024x64x1) : Arr S1024x1 :=
  Host.reduceAdd (F := Ideal) (φ := .f32) v19 (constant (F := Ideal) S_ .f32 0x00000000#32) reducesTo_S1024x64x1_S1024x1_d1 h_S_

/-- %23: the softmax weights — each exponential divided by the sum. -/
def val_v23 (v19 : Arr S1024x64x1) (v20 : Arr S1024x1) : Arr S1024x64x1 :=
  Host.divf (F := Ideal) (φ := .f32) v19 (val_v17 v20)

/-- %26: the rows of %0 averaged with the weights — the weighted rows summed along the middle axis. -/
def val_v26 (v23 : Arr S1024x64x1) (v0 : Arr S1024x64x512) : Arr S1024x512 :=
  Host.reduceAdd (F := Ideal) (φ := .f32)
    (mulf (F := Ideal) (φ := .f32) (broadcastInDim S1024x64x512 ![0, 1, 2] bcast_S1024x64x1_S1024x64x512_0_1_2 v23) v0)
    (constant (F := Ideal) S_ .f32 0x00000000#32) reducesTo_S1024x64x512_S1024x512_d1 h_S_

/-- %30: the 256 biases along the last axis of 1024 × 256, in two steps. -/
def val_v30 (a7 : Arr S256) : Arr S1024x256 :=
  broadcastInDim S1024x256 ![0, 1] bcast_S1x256_S1024x256_0_1 (broadcastInDim S1x256 ![1] bcast_S256_S1x256_1 a7)

/-- %31: the projection — %26 contracted with the transposed weight matrix, plus the bias. -/
def val_v31 (v26 : Arr S1024x512) (a6 : Arr S256x512) (a7 : Arr S256) : Arr S1024x256 :=
  addf (F := Ideal) (φ := .f32)
    (Host.dotGeneral (F := Ideal) (φ₁ := .f32) (φ₂ := .f32) dot_S1024x512_S512x256_S1024x256_1_0_0_1_n_n none v26
      (transpose S512x256 [1, 0] a6 transposes_S256x512_S512x256_1_0))
    (val_v30 a7)

/-- %32: %31's elements in row-major order at shape 32 × 32 × 256. -/
def val_v32 (v31 : Arr S1024x256) : Arr S32x32x256 :=
  fun i => shapeCast S32x32x256 v31 shapeCasts_S1024x256_S32x32x256 i

/-- %33: %32 with its first two axes exchanged. -/
def val_v33 (v32 : Arr S32x32x256) : Arr S32x32x256 :=
  transpose S32x32x256 [1, 0, 2] v32 transposes_S32x32x256_S32x32x256_1_0_2

/-- The output tensor as a function of the eight arguments: the operations composed in program order (the scores %12
    are read four times, the exponentials %19 twice, %0 twice). -/
def result (a0 : Arr S32x32x64x512) (a1 : Arr S64x512) (a2 a3 : Arr S64) (a4 : Arr S1x64) (a5 : Arr S1)
    (a6 : Arr S256x512) (a7 : Arr S256) : Arr S32x32x256 :=
  val_v33 (val_v32 (val_v31
    (val_v26
      (val_v23
        (val_v19 (val_v12 (val_v8 (val_v7 (val_v1 (val_v0 a0) a1) a2 a3)) a4 a5)
          (val_v15 (val_v12 (val_v8 (val_v7 (val_v1 (val_v0 a0) a1) a2 a3)) a4 a5)))
        (val_v20
          (val_v19 (val_v12 (val_v8 (val_v7 (val_v1 (val_v0 a0) a1) a2 a3)) a4 a5)
            (val_v15 (val_v12 (val_v8 (val_v7 (val_v1 (val_v0 a0) a1) a2 a3)) a4 a5)))))
      (val_v0 a0))
    a6 a7))

end Cert.ReferenceIdeal.Stages

end
-- ==== Proof.RefRun.lean ====
/-
  The run of the reference program, read back.

  The reference's entry function is a straight line of forty-five tensor operations once its one call (the leaky
  rectifier, which itself calls a three-way select) is replaced by the callee's operations over the call's own
  buffers. A straight line of such operations, run from any memory with zero counters, terminates under every
  weakly fair schedule, and each buffer then holds the fold of the operations' results over the launch contents.
  Reading the fold at the output buffer gives the composition of the operations' functions (`Stages.result`) of the
  eight arguments; reading it at an argument buffer, which no operation writes, gives the argument unchanged.
-/
import proofs.«173493_j9594956939719_1_alg».proof.Proof.RefStages
import proofs.«173493_j9594956939719_1_alg».proof.Proof.Gen.ReferenceIdeal
import Idealize.ShloMosaic.Lib.StableHlo.Run

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The entry function's forty-five operations, in order: its own thirty-eight, and in the place of the call the
    callee's seven (a zero and its broadcast, the comparison, the slope's conversion and broadcast, the product, the
    select) over the buffers of that call. -/
abbrev ops : List (HloOp τ sig (Elt F)) :=
  [
    StableHlo.reshape main_arg0 main_v0 rfl shapeCasts_S32x32x64x512_S1024x64x512,
    StableHlo.binary main_v0 main_arg1 main_v1 ((fun l r => Host.dotGeneral dot_S1024x64x512_S64x512_S1024x64x64_2_1_01_0_n_n none l r) : (⟨S1024x64x512, .f32⟩ : BufTy).Contents (Elt F) → (⟨S64x512, .f32⟩ : BufTy).Contents (Elt F) → (⟨S1024x64x64, .f32⟩ : BufTy).Contents (Elt F)),
    StableHlo.unary main_arg2 main_v2 (broadcastInDim S1x1x64 ![2] bcast_S64_S1x1x64_2 : (⟨S64, .f32⟩ : BufTy).Contents (Elt F) → (⟨S1x1x64, .f32⟩ : BufTy).Contents (Elt F)),
    StableHlo.unary main_v2 main_v3 (broadcastInDim S1024x64x64 ![0, 1, 2] bcast_S1x1x64_S1024x64x64_0_1_2 : (⟨S1x1x64, .f32⟩ : BufTy).Contents (Elt F) → (⟨S1024x64x64, .f32⟩ : BufTy).Contents (Elt F)),
    StableHlo.binary main_v1 main_v3 main_v4 (addf : (⟨S1024x64x64, .f32⟩ : BufTy).Contents (Elt F) → (⟨S1024x64x64, .f32⟩ : BufTy).Contents (Elt F) → (⟨S1024x64x64, .f32⟩ : BufTy).Contents (Elt F)),
    StableHlo.unary main_arg3 main_v5 (broadcastInDim S1x1x64 ![2] bcast_S64_S1x1x64_2 : (⟨S64, .f32⟩ : BufTy).Contents (Elt F) → (⟨S1x1x64, .f32⟩ : BufTy).Contents (Elt F)),
    StableHlo.unary main_v5 main_v6 (broadcastInDim S1024x64x64 ![0, 1, 2] bcast_S1x1x64_S1024x64x64_0_1_2 : (⟨S1x1x64, .f32⟩ : BufTy).Contents (Elt F) → (⟨S1024x64x64, .f32⟩ : BufTy).Contents (Elt F)),
    StableHlo.binary main_v4 main_v6 main_v7 (addf : (⟨S1024x64x64, .f32⟩ : BufTy).Contents (Elt F) → (⟨S1024x64x64, .f32⟩ : BufTy).Contents (Elt F) → (⟨S1024x64x64, .f32⟩ : BufTy).Contents (Elt F)),
    StableHlo.nullary main_cst (constant S_ .f32 0x3E4CCCCD#32),
    TRef.nullary main_call0.cst (constant S_ .f32 0x00000000#32),
    TRef.unary main_call0.cst main_call0.v0 (broadcastInDim S1024x64x64 ![] bcast_S_S1024x64x64),
    TRef.binary (.of main_v7 : TRef sig ⟨S1024x64x64, .f32⟩) main_call0.v0 main_call0.v1 (cmpf .oge),
    TRef.unary (.of main_cst : TRef sig ⟨S_, .f32⟩) main_call0.v2 id,
    TRef.unary main_call0.v2 main_call0.v3 (broadcastInDim S1024x64x64 ![] bcast_S_S1024x64x64),
    TRef.binary main_call0.v3 (.of main_v7 : TRef sig ⟨S1024x64x64, .f32⟩) main_call0.v4 mulf,
    TRef.ternary main_call0.v1 (.of main_v7 : TRef sig ⟨S1024x64x64, .f32⟩) main_call0.v4 main_call0.call0.v0 select,
    StableHlo.binary main_v8 main_arg4 main_v9 ((fun l r => Host.dotGeneral dot_S1024x64x64_S1x64_S1024x64x1_2_1_01_0_n_n none l r) : (⟨S1024x64x64, .f32⟩ : BufTy).Contents (Elt F) → (⟨S1x64, .f32⟩ : BufTy).Contents (Elt F) → (⟨S1024x64x1, .f32⟩ : BufTy).Contents (Elt F)),
    StableHlo.unary main_arg5 main_v10 (broadcastInDim S1x1x1 ![2] bcast_S1_S1x1x1_2 : (⟨S1, .f32⟩ : BufTy).Contents (Elt F) → (⟨S1x1x1, .f32⟩ : BufTy).Contents (Elt F)),
    StableHlo.unary main_v10 main_v11 (broadcastInDim S1024x64x1 ![0, 1, 2] bcast_S1x1x1_S1024x64x1_0_1_2 : (⟨S1x1x1, .f32⟩ : BufTy).Contents (Elt F) → (⟨S1024x64x1, .f32⟩ : BufTy).Contents (Elt F)),
    StableHlo.binary main_v9 main_v11 main_v12 (addf : (⟨S1024x64x1, .f32⟩ : BufTy).Contents (Elt F) → (⟨S1024x64x1, .f32⟩ : BufTy).Contents (Elt F) → (⟨S1024x64x1, .f32⟩ : BufTy).Contents (Elt F)),
    StableHlo.nullary main_cst_0 (constant S_ .f32 0xFF800000#32),
    StableHlo.binary main_v12 main_cst_0 main_v13 ((fun x v => Host.reduce FloatOps.maximumf x v reducesTo_S1024x64x1_S1024x1_d1 h_S_) : (⟨S1024x64x1, .f32⟩ : BufTy).Contents (Elt F) → (⟨S_, .f32⟩ : BufTy).Contents (Elt F) → (⟨S1024x1, .f32⟩ : BufTy).Contents (Elt F)),
    StableHlo.nullary main_cst_1 (constant S_ .f32 0xFF800000#32),
    StableHlo.unary main_cst_1 main_v14 (broadcastInDim S1024x1 ![] bcast_S_S1024x1 : (⟨S_, .f32⟩ : BufTy).Contents (Elt F) → (⟨S1024x1, .f32⟩ : BufTy).Contents (Elt F)),
    StableHlo.binary main_v14 main_v13 main_v15 (maximumf : (⟨S1024x1, .f32⟩ : BufTy).Contents (Elt F) → (⟨S1024x1, .f32⟩ : BufTy).Contents (Elt F) → (⟨S1024x1, .f32⟩ : BufTy).Contents (Elt F)),
    StableHlo.unary main_v15 main_v16 (broadcastInDim S1024x1x1 ![0, 2] bcast_S1024x1_S1024x1x1_0_2 : (⟨S1024x1, .f32⟩ : BufTy).Contents (Elt F) → (⟨S1024x1x1, .f32⟩ : BufTy).Contents (Elt F)),
    StableHlo.unary main_v16 main_v17 (broadcastInDim S1024x64x1 ![0, 1, 2] bcast_S1024x1x1_S1024x64x1_0_1_2 : (⟨S1024x1x1, .f32⟩ : BufTy).Contents (Elt F) → (⟨S1024x64x1, .f32⟩ : BufTy).Contents (Elt F)),
    StableHlo.binary main_v12 main_v17 main_v18 (subf : (⟨S1024x64x1, .f32⟩ : BufTy).Contents (Elt F) → (⟨S1024x64x1, .f32⟩ : BufTy).Contents (Elt F) → (⟨S1024x64x1, .f32⟩ : BufTy).Contents (Elt F)),
    StableHlo.unary main_v18 main_v19 (Host.exp : (⟨S1024x64x1, .f32⟩ : BufTy).Contents (Elt F) → (⟨S1024x64x1, .f32⟩ : BufTy).Contents (Elt F)),
    StableHlo.nullary main_cst_2 (constant S_ .f32 0x00000000#32),
    StableHlo.binary main_v19 main_cst_2 main_v20 ((fun x v => Host.reduceAdd x v reducesTo_S1024x64x1_S1024x1_d1 h_S_) : (⟨S1024x64x1, .f32⟩ : BufTy).Contents (Elt F) → (⟨S_, .f32⟩ : BufTy).Contents (Elt F) → (⟨S1024x1, .f32⟩ : BufTy).Contents (Elt F)),
    StableHlo.unary main_v20 main_v21 (broadcastInDim S1024x1x1 ![0, 2] bcast_S1024x1_S1024x1x1_0_2 : (⟨S1024x1, .f32⟩ : BufTy).Contents (Elt F) → (⟨S1024x1x1, .f32⟩ : BufTy).Contents (Elt F)),
    StableHlo.unary main_v21 main_v22 (broadcastInDim S1024x64x1 ![0, 1, 2] bcast_S1024x1x1_S1024x64x1_0_1_2 : (⟨S1024x1x1, .f32⟩ : BufTy).Contents (Elt F) → (⟨S1024x64x1, .f32⟩ : BufTy).Contents (Elt F)),
    StableHlo.binary main_v19 main_v22 main_v23 (Host.divf : (⟨S1024x64x1, .f32⟩ : BufTy).Contents (Elt F) → (⟨S1024x64x1, .f32⟩ : BufTy).Contents (Elt F) → (⟨S1024x64x1, .f32⟩ : BufTy).Contents (Elt F)),
    StableHlo.unary main_v23 main_v24 (broadcastInDim S1024x64x512 ![0, 1, 2] bcast_S1024x64x1_S1024x64x512_0_1_2 : (⟨S1024x64x1, .f32⟩ : BufTy).Contents (Elt F) → (⟨S1024x64x512, .f32⟩ : BufTy).Contents (Elt F)),
    StableHlo.binary main_v24 main_v0 main_v25 (mulf : (⟨S1024x64x512, .f32⟩ : BufTy).Contents (Elt F) → (⟨S1024x64x512, .f32⟩ : BufTy).Contents (Elt F) → (⟨S1024x64x512, .f32⟩ : BufTy).Contents (Elt F)),
    StableHlo.nullary main_cst_3 (constant S_ .f32 0x00000000#32),
    StableHlo.binary main_v25 main_cst_3 main_v26 ((fun x v => Host.reduceAdd x v reducesTo_S1024x64x512_S1024x512_d1 h_S_) : (⟨S1024x64x512, .f32⟩ : BufTy).Contents (Elt F) → (⟨S_, .f32⟩ : BufTy).Contents (Elt F) → (⟨S1024x512, .f32⟩ : BufTy).Contents (Elt F)),
    StableHlo.unary main_arg6 main_v27 ((transpose S512x256 [1, 0] · transposes_S256x512_S512x256_1_0) : (⟨S256x512, .f32⟩ : BufTy).Contents (Elt F) → (⟨S512x256, .f32⟩ : BufTy).Contents (Elt F)),
    StableHlo.binary main_v26 main_v27 main_v28 ((fun l r => Host.dotGeneral dot_S1024x512_S512x256_S1024x256_1_0_0_1_n_n none l r) : (⟨S1024x512, .f32⟩ : BufTy).Contents (Elt F) → (⟨S512x256, .f32⟩ : BufTy).Contents (Elt F) → (⟨S1024x256, .f32⟩ : BufTy).Contents (Elt F)),
    StableHlo.unary main_arg7 main_v29 (broadcastInDim S1x256 ![1] bcast_S256_S1x256_1 : (⟨S256, .f32⟩ : BufTy).Contents (Elt F) → (⟨S1x256, .f32⟩ : BufTy).Contents (Elt F)),
    StableHlo.unary main_v29 main_v30 (broadcastInDim S1024x256 ![0, 1] bcast_S1x256_S1024x256_0_1 : (⟨S1x256, .f32⟩ : BufTy).Contents (Elt F) → (⟨S1024x256, .f32⟩ : BufTy).Contents (Elt F)),
    StableHlo.binary main_v28 main_v30 main_v31 (addf : (⟨S1024x256, .f32⟩ : BufTy).Contents (Elt F) → (⟨S1024x256, .f32⟩ : BufTy).Contents (Elt F) → (⟨S1024x256, .f32⟩ : BufTy).Contents (Elt F)),
    StableHlo.reshape main_v31 main_v32 rfl shapeCasts_S1024x256_S32x32x256,
    StableHlo.unary main_v32 main_v33 ((transpose S32x32x256 [1, 0, 2] · transposes_S32x32x256_S32x32x256_1_0_2) : (⟨S32x32x256, .f32⟩ : BufTy).Contents (Elt F) → (⟨S32x32x256, .f32⟩ : BufTy).Contents (Elt F)) ]

-- re-associating forty-five nested sequencing steps recurses once per step, past the default depth
set_option maxRecDepth 2048 in
/-- The entry function is that straight line: the two callees' definitions unfolded at their calls, both sides are one
    chain of steps once sequencing is re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device's main core only. -/
theorem ops_sub : (ops : List (HloOp τ sig (Elt F))).Forall fun op => op.bufs ⊆ tcRefs τ sig :=
  ⟨reshape_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., unary_bufs_sub .., binary_bufs_sub .., unary_bufs_sub .., unary_bufs_sub .., binary_bufs_sub .., reshape_bufs_sub .., unary_bufs_sub ..⟩

theorem arg0_eq (V : Valuation τ sig (Elt F)) :
    after (ops (F := F)) V (main_arg0 : DevRef τ sig) = V (main_arg0 : DevRef τ sig) := by
  after_results_simp

theorem arg1_eq (V : Valuation τ sig (Elt F)) :
    after (ops (F := F)) V (main_arg1 : DevRef τ sig) = V (main_arg1 : DevRef τ sig) := by
  after_results_simp

theorem arg2_eq (V : Valuation τ sig (Elt F)) :
    after (ops (F := F)) V (main_arg2 : DevRef τ sig) = V (main_arg2 : DevRef τ sig) := by
  after_results_simp

theorem arg3_eq (V : Valuation τ sig (Elt F)) :
    after (ops (F := F)) V (main_arg3 : DevRef τ sig) = V (main_arg3 : DevRef τ sig) := by
  after_results_simp

theorem arg4_eq (V : Valuation τ sig (Elt F)) :
    after (ops (F := F)) V (main_arg4 : DevRef τ sig) = V (main_arg4 : DevRef τ sig) := by
  after_results_simp

theorem arg5_eq (V : Valuation τ sig (Elt F)) :
    after (ops (F := F)) V (main_arg5 : DevRef τ sig) = V (main_arg5 : DevRef τ sig) := by
  after_results_simp

theorem arg6_eq (V : Valuation τ sig (Elt F)) :
    after (ops (F := F)) V (main_arg6 : DevRef τ sig) = V (main_arg6 : DevRef τ sig) := by
  after_results_simp

theorem arg7_eq (V : Valuation τ sig (Elt F)) :
    after (ops (F := F)) V (main_arg7 : DevRef τ sig) = V (main_arg7 : DevRef τ sig) := by
  after_results_simp

/-- The fold read at the output buffer: each operation's result at its own buffer is its function of its operands'
    contents, so the output is the composition of the functions, stage by stage. -/
theorem out_eq (V : Valuation τ sig (Elt Ideal)) :
    after (ops (F := Ideal)) V (main_v33 : DevRef τ sig)
      = Stages.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results_simp
  rfl

/-- On every device, from any memory with zero counters: every weakly fair execution of the entry function terminates
    with the output buffer at `Stages.result` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33) = Stages.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v33).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.RefRun

end
-- ==== Proof.LibDotLastAxes.lean ====
/-
  A stack of matrix products against one matrix, read at an entry.

  The host's product of a [p, q, k] array A with an [n, k] matrix B that contracts the LAST axis of both, keeping A's
  two leading axes, has at entry (i, j, l) the sum over the k contracted positions c of A(i, j, c) · B(l, c). At the exact
  extended reals the product is the plain finite sum.
-/
import Idealize.ShloMosaic.PureOps.Ideal.Laws
import Idealize.ShloMosaic.Lib.ValueIdx

open scoped BigOperators

noncomputable section

namespace Idealize.ShloMosaic.ValueIdx

open Idealize.ShloMosaic

/-- The host's `dot_general` of `[p, q, k]` by `[n, k]` contracting axes 2 and 1, read at `(i, j, l)`:
    `∑ c, A (i, j, c) * B (l, c)`. `w` is the dimension record's well-formedness, which a program states. -/
theorem dotGeneral_last_last_apply {p q k n : ℕ} {φ₁ φ₂ : FTy}
    (w : DotDims.WF ⟨3, ![p, q, k]⟩ ⟨2, ![n, k]⟩ ⟨3, ![p, q, n]⟩ [2] [1] [0, 1] [0] [] [])
    (prec : Option ContractPrecision) (A : FVec Ideal ⟨3, ![p, q, k]⟩ φ₁) (B : FVec Ideal ⟨2, ![n, k]⟩ φ₂)
    (i : Fin p) (j : Fin q) (l : Fin n) :
    Host.dotGeneral (⟨[2], [1], [0, 1], [0], [], [], w⟩ : DotDims ⟨3, ![p, q, k]⟩ ⟨2, ![n, k]⟩ ⟨3, ![p, q, n]⟩) prec A B (ix3 i j l)
      = ∑ c : Fin k, A (ix3 i j c) * B (ix2 l c) := by
  show FloatOps.dotGeneral _ prec .single A B (ix3 i j l) = _
  rw [Ideal.dotGeneral_apply,
    ← Equiv.sum_comp (contrEquiv1 (⟨[2], [1], [0, 1], [0], [], [], w⟩ : DotDims ⟨3, ![p, q, k]⟩ ⟨2, ![n, k]⟩ ⟨3, ![p, q, n]⟩) k rfl rfl).symm]
  refine Finset.sum_congr rfl fun c _ => ?_
  have c2 := contrEquiv1_symm_val (⟨[2], [1], [0, 1], [0], [], [], w⟩ : DotDims ⟨3, ![p, q, k]⟩ ⟨2, ![n, k]⟩ ⟨3, ![p, q, n]⟩) k rfl rfl c
  have l2 : (⟨[2], [1], [0, 1], [0], [], [], w⟩ : DotDims ⟨3, ![p, q, k]⟩ ⟨2, ![n, k]⟩ ⟨3, ![p, q, n]⟩).lhsIdx (ix3 i j l)
      ((contrEquiv1 _ k rfl rfl).symm c) = ix3 i j c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c2
  have r2 : (⟨[2], [1], [0, 1], [0], [], [], w⟩ : DotDims ⟨3, ![p, q, k]⟩ ⟨2, ![n, k]⟩ ⟨3, ![p, q, n]⟩).rhsIdx (ix3 i j l)
      ((contrEquiv1 _ k rfl rfl).symm c) = ix2 l c := by
    funext ax; apply Fin.ext
    match ax with
    | ⟨0, _⟩ => simp [DotDims.rhsIdx]; rfl
    | ⟨1, _⟩ => simp [DotDims.rhsIdx]; exact c2
  rw [l2, r2]

end Idealize.ShloMosaic.ValueIdx

end
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibBiasRows.lean ====
/-
  A vector repeated down the rows, or across the columns, of a matrix, the way the host writes it.

  A vector b of length n is first made a 1 × n row (broadcast along a new leading axis) and the row is then repeated
  M times (broadcast along that axis). Entry (r, a) of the result is b(a), whatever the row r. Likewise a vector
  v of length E made an E × 1 column and repeated across C columns has v(e) at entry (e, l).
-/
import Idealize.ShloMosaic.Lib.Pipeline.Value
import Idealize.ShloMosaic.Lib.ValueIdx

namespace Idealize.ShloMosaic.ValueIdx

open Idealize.ShloMosaic

variable {α : Type}

/-- A length-`n` vector broadcast to `[1, n]` and then to `[M, n]` reads, at `(r, a)`, the vector at `a`. -/
theorem bias_rows_apply {M n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2))
    (r : Fin M) (a : Fin n) :
    broadcastInDim ⟨2, ![M, n]⟩ (![0, 1] : Fin 2 → Fin 2) h2 (broadcastInDim ⟨2, ![1, n]⟩ (![1] : Fin 1 → Fin 2) h1 b) (ix2 r a)
      = b (ix1 a) := by
  refine (broadcastInDim_apply _ h2 _ (ix2 r a) (ix2 (0 : Fin 1) a) (fun ax => ?_)).trans
    (broadcastInDim_apply _ h1 b (ix2 (0 : Fin 1) a) (ix1 a) (fun ax => ?_))
  · match ax with
    | ⟨0, _⟩ => show 0 = if (1 : ℕ) = 1 then 0 else r.val; rw [if_pos rfl]
    | ⟨1, _⟩ =>
      show a.val = if n = 1 then 0 else a.val
      split
      · have := a.isLt; omega
      · rfl
  · match ax with
    | ⟨0, _⟩ =>
      show a.val = if n = 1 then 0 else a.val
      split
      · have := a.isLt; omega
      · rfl

/-- A length-`E` vector broadcast to one column `[E, 1]` and then across `C` columns reads, at `(e, l)`, the vector
    at `e`: one factor per row, repeated along the row. -/
theorem row_factors_apply {E C : ℕ} (v : (⟨1, ![E]⟩ : Shape).Idx → α)
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2))
    (e : Fin E) (l : Fin C) :
    broadcastInDim ⟨2, ![E, C]⟩ (![0, 1] : Fin 2 → Fin 2) h2 (broadcastInDim ⟨2, ![E, 1]⟩ (![0] : Fin 1 → Fin 2) h1 v) (ix2 e l)
      = v (ix1 e) := by
  refine (broadcastInDim_apply _ h2 _ (ix2 e l) (ix2 e (0 : Fin 1)) (fun ax => ?_)).trans
    (broadcastInDim_apply _ h1 v (ix2 e (0 : Fin 1)) (ix1 e) (fun ax => ?_))
  · match ax with
    | ⟨0, _⟩ =>
      show e.val = if E = 1 then 0 else e.val
      split
      · have := e.isLt; omega
      · rfl
    | ⟨1, _⟩ => show 0 = if (1 : ℕ) = 1 then 0 else l.val; rw [if_pos rfl]
  · match ax with
    | ⟨0, _⟩ =>
      show e.val = if E = 1 then 0 else e.val
      split
      · have := e.isLt; omega
      · rfl

end Idealize.ShloMosaic.ValueIdx
-- ==== Proof.RefRead.lean ====
/-
  The reference's operations read at an index, and the reference's result as the whole-array row function.

  The reference flattens (batch, time) to 1024 rows R = 32 b + t and works on 1024 × 64 × · arrays. Each of its named
  values is read here at an index given by coordinates; composed, entry (b, t, o) of its reshaped projection is output o of
  the row function of the data's 64 × 512 slice (b, t), and the last line exchanges the two leading axes.
-/
import proofs.«173493_j9594956939719_1_alg».proof.Proof.RefStages
import proofs.«173493_j9594956939719_1_alg».proof.Proof.Spec
import proofs.«173493_j9594956939719_1_alg».proof.Proof.LibDotLastAxes
import proofs.«173493_j9594956939719_1_alg».proof.Proof.LibPlainDotGeneral
import proofs.«173493_j9594956939719_1_alg».proof.Proof.LibBiasRows
import proofs.«173493_j9594956939719_1_alg».proof.Proof.LibMiddleAxis
import proofs.«173493_j9594956939719_1_alg».proof.Proof.LibFlattenCasts
import Idealize.ShloMosaic.Lib.IdealHost
import Idealize.ShloMosaic.Lib.ValueLayout
import Idealize.ShloMosaic.Lib.Pipeline.Value
import Idealize.ShloMosaic.PureOps.Ideal.Laws

open scoped BigOperators

noncomputable section

namespace Cert.ReferenceIdeal.Read

open Idealize.ShloMosaic Idealize.ShloMosaic.ValueIdx
open Cert.ReferenceIdeal Cert.ReferenceIdeal.Stages Cert.ReferenceIdeal.Facts₀

variable [Facts]

/-- Row 32 b + t of the 1024 flattened (batch, time) pairs. -/
def flat (b t : Fin 32) : Fin 1024 := ⟨b.val * 32 + t.val, by have := b.isLt; have := t.isLt; omega⟩

/-- The middle axis of a 1024 × 64 × 1 array reduces to 1024 × 1. -/
theorem red1 : S1024x64x1.Reduces [1] S1024x1 := by decide
/-- The middle axis of a 1024 × 64 × 512 array reduces to 1024 × 512. -/
theorem red512 : S1024x64x512.Reduces [1] S1024x512 := by decide

theorem v0_apply (a0 : Arr S32x32x64x512) (b t : Fin 32) (n : Fin 64) (d : Fin 512) (R : Fin 1024) (hR : R.val = b.val * 32 + t.val) :
    val_v0 a0 (ix3 R n d) = a0 (ix4 b t n d) := by
  unfold val_v0
  refine shapeCast_apply a0 _ _ _ ?_
  rw [Shape.rowMajor_val_four, Shape.rowMajor_val_three]
  show ((b.val * 32 + t.val) * 64 + n.val) * 512 + d.val = (R.val * 64 + n.val) * 512 + d.val
  rw [hR]

theorem v1_apply (v0 : Arr S1024x64x512) (a1 : Arr S64x512) (R : Fin 1024) (n h : Fin 64) :
    val_v1 v0 a1 (ix3 R n h) = ∑ d : Fin 512, v0 (ix3 R n d) * a1 (ix2 h d) :=
  dotGeneral_last_last_apply dot_S1024x64x512_S64x512_S1024x64x64_2_1_01_0_n_n_wf none v0 a1 R n h

theorem v3_apply (a : Arr S64) (R : Fin 1024) (n h : Fin 64) : val_v3 a (ix3 R n h) = a (ix1 h) := by
  unfold val_v3
  refine (broadcastInDim_apply _ _ _ (ix3 R n h) (ix3 (0 : Fin 1) (0 : Fin 1) h) (fun ax => ?_)).trans
    (broadcastInDim_apply _ _ a (ix3 (0 : Fin 1) (0 : Fin 1) h) (ix1 h) (fun ax => ?_))
  · match ax with
    | ⟨0, _⟩ => rfl
    | ⟨1, _⟩ => rfl
    | ⟨2, _⟩ => rfl
  · match ax with
    | ⟨0, _⟩ => rfl

theorem v7_apply (v1 : Arr S1024x64x64) (a2 a3 : Arr S64) (R : Fin 1024) (n h : Fin 64) :
    val_v7 v1 a2 a3 (ix3 R n h) = v1 (ix3 R n h) + a2 (ix1 h) + a3 (ix1 h) := by
  unfold val_v7
  rw [addf_apply, addf_apply, v3_apply, v3_apply]

theorem v8_apply (v7 : Arr S1024x64x64) (i : S1024x64x64.Idx) : val_v8 v7 i = Spec.leaky (v7 i) := by
  unfold val_v8
  rw [select_apply, cmpf_apply, mulf_apply, broadcastInDim_scalar_apply, broadcastInDim_scalar_apply]
  rfl

theorem v11_apply (a5 : Arr S1) (R : Fin 1024) (n : Fin 64) (u : Fin 1) : val_v11 a5 (ix3 R n u) = a5 (ix1 (0 : Fin 1)) := by
  unfold val_v11
  refine (broadcastInDim_apply _ _ _ (ix3 R n u) (ix3 (0 : Fin 1) (0 : Fin 1) (0 : Fin 1)) (fun ax => ?_)).trans
    (broadcastInDim_apply _ _ a5 (ix3 (0 : Fin 1) (0 : Fin 1) (0 : Fin 1)) (ix1 (0 : Fin 1)) (fun ax => ?_))
  · match ax with
    | ⟨0, _⟩ => rfl
    | ⟨1, _⟩ => rfl
    | ⟨2, _⟩ => rfl
  · match ax with
    | ⟨0, _⟩ => rfl

theorem v12_apply (v8 : Arr S1024x64x64) (a4 : Arr S1x64) (a5 : Arr S1) (R : Fin 1024) (n : Fin 64) :
    val_v12 v8 a4 a5 (ix3 R n (0 : Fin 1)) = (∑ h : Fin 64, v8 (ix3 R n h) * a4 (ix2 (0 : Fin 1) h)) + a5 (ix1 (0 : Fin 1)) := by
  unfold val_v12
  rw [addf_apply, v11_apply]
  exact congrArg (· + a5 (ix1 (0 : Fin 1)))
    (dotGeneral_last_last_apply dot_S1024x64x64_S1x64_S1024x64x1_2_1_01_0_n_n_wf none v8 a4 R n (0 : Fin 1))

theorem v15_apply (v12 : Arr S1024x64x1) (R : Fin 1024) :
    val_v15 v12 (ix2 R (0 : Fin 1)) = Spec.peak (fun k => v12 (ix3 R k (0 : Fin 1))) := by
  unfold val_v15 Spec.peak
  rw [maximumf_apply, broadcastInDim_scalar_apply]
  refine congrArg₂ max rfl ?_
  rw [Host.reduce_eq_fold_single (FloatOps.maximumf (F := Ideal) (φ := .f32)) v12 _ reducesTo_S1024x64x1_S1024x1_d1 red1 h_S_]
  have e : v12 ∘ red1.lift (ix2 R (0 : Fin 1)) = fun k => v12 (ix3 R k (0 : Fin 1)) :=
    funext fun k => congrArg v12 (reduces_middle_lift red1 R (0 : Fin 1) k)
  rw [e]
  rfl

theorem v17_apply (v : Arr S1024x1) (R : Fin 1024) (n : Fin 64) (u : Fin 1) : val_v17 v (ix3 R n u) = v (ix2 R (0 : Fin 1)) := by
  unfold val_v17
  refine (broadcastInDim_apply _ _ _ (ix3 R n u) (ix3 R (0 : Fin 1) (0 : Fin 1)) (fun ax => ?_)).trans
    (broadcastInDim_apply _ _ v (ix3 R (0 : Fin 1) (0 : Fin 1)) (ix2 R (0 : Fin 1)) (fun ax => ?_))
  · match ax with
    | ⟨0, _⟩ => rfl
    | ⟨1, _⟩ => rfl
    | ⟨2, _⟩ => rfl
  · match ax with
    | ⟨0, _⟩ => rfl
    | ⟨1, _⟩ => rfl

theorem v19_apply (v12 : Arr S1024x64x1) (v15 : Arr S1024x1) (R : Fin 1024) (n : Fin 64) :
    val_v19 v12 v15 (ix3 R n (0 : Fin 1)) = Ideal.exp (v12 (ix3 R n (0 : Fin 1)) - v15 (ix2 R (0 : Fin 1))) := by
  unfold val_v19
  show Ideal.exp (subf (F := Ideal) (φ := .f32) v12 (val_v17 v15) (ix3 R n (0 : Fin 1))) = _
  rw [subf_apply, v17_apply]

theorem v20_apply (v19 : Arr S1024x64x1) (R : Fin 1024) :
    val_v20 v19 (ix2 R (0 : Fin 1)) = ∑ k : Fin 64, v19 (ix3 R k (0 : Fin 1)) := by
  unfold val_v20
  rw [hostReduceAdd_apply, Ideal.hostReduceAdd_single _ red1, constant_apply, Ideal.ofBits_zero_f32, zero_add]
  exact Finset.sum_congr rfl fun k _ => congrArg v19 (reduces_middle_lift red1 R (0 : Fin 1) k)

theorem v23_apply (v19 : Arr S1024x64x1) (v20 : Arr S1024x1) (R : Fin 1024) (n : Fin 64) :
    val_v23 v19 v20 (ix3 R n (0 : Fin 1)) = Ideal.div (v19 (ix3 R n (0 : Fin 1))) (v20 (ix2 R (0 : Fin 1))) := by
  unfold val_v23
  rw [hostDivf_apply, v17_apply]

theorem v26_apply (v23 : Arr S1024x64x1) (v0 : Arr S1024x64x512) (R : Fin 1024) (d : Fin 512) :
    val_v26 v23 v0 (ix2 R d) = ∑ n : Fin 64, v23 (ix3 R n (0 : Fin 1)) * v0 (ix3 R n d) := by
  unfold val_v26
  rw [hostReduceAdd_apply, Ideal.hostReduceAdd_single _ red512, constant_apply, Ideal.ofBits_zero_f32, zero_add]
  refine Finset.sum_congr rfl fun n _ => ?_
  rw [reduces_middle_lift red512 R d n, mulf_apply]
  refine congrArg (· * v0 (ix3 R n d)) ?_
  refine broadcastInDim_apply _ _ v23 (ix3 R n d) (ix3 R n (0 : Fin 1)) (fun ax => ?_)
  match ax with
  | ⟨0, _⟩ => rfl
  | ⟨1, _⟩ => rfl
  | ⟨2, _⟩ => rfl

theorem v31_apply (v26 : Arr S1024x512) (a6 : Arr S256x512) (a7 : Arr S256) (R : Fin 1024) (o : Fin 256) :
    val_v31 v26 a6 a7 (ix2 R o) = (∑ d : Fin 512, v26 (ix2 R d) * a6 (ix2 o d)) + a7 (ix1 o) := by
  unfold val_v31 val_v30
  rw [addf_apply, bias_rows_apply]
  refine congrArg (· + a7 (ix1 o)) ?_
  refine (dotGeneral_plain_apply dot_S1024x512_S512x256_S1024x256_1_0_0_1_n_n_wf none v26 _ R o).trans ?_
  exact Finset.sum_congr rfl fun d _ => congrArg (v26 (ix2 R d) * ·) (transpose_ix2_apply a6 _ d o)

theorem v32_apply (v31 : Arr S1024x256) (b t : Fin 32) (o : Fin 256) (R : Fin 1024) (hR : R.val = b.val * 32 + t.val) :
    val_v32 v31 (ix3 b t o) = v31 (ix2 R o) := by
  unfold val_v32
  exact shapeCast_nc_abc_apply v31 _ b t o R hR

/-- The reference's result is the whole-array row function with its two leading axes exchanged. -/
theorem result_eq (a0 : Arr S32x32x64x512) (a1 : Arr S64x512) (a2 a3 : Arr S64) (a4 : Arr S1x64) (a5 : Arr S1)
    (a6 : Arr S256x512) (a7 : Arr S256) :
    result a0 a1 a2 a3 a4 a5 a6 a7
      = transpose S32x32x256 [1, 0, 2] (Spec.whole a0 a1 a2 a3 a4 a5 a6 a7) transposes_S32x32x256_S32x32x256_1_0_2 := by
  unfold result val_v33
  refine congrArg (fun x => transpose S32x32x256 [1, 0, 2] x transposes_S32x32x256_S32x32x256_1_0_2) (funext fun i => ?_)
  obtain ⟨b, t, o, rfl⟩ : ∃ (b t : Fin 32) (o : Fin 256), i = ix3 b t o := ⟨i 0, i 1, i 2, eq_ix3 i⟩
  rw [v32_apply _ b t o (flat b t) rfl, v31_apply]
  unfold Spec.whole Spec.row Spec.project Spec.pooled Spec.weight Spec.score Spec.hidden
  simp only [v26_apply, v23_apply, v20_apply, v19_apply, v15_apply, v12_apply, v8_apply, v7_apply, v1_apply,
    v0_apply a0 b t _ _ (flat b t) rfl]

end Cert.ReferenceIdeal.Read

end
-- ==== Proof.lean ====
/-
  Attention pooling over the nodes of a (batch, time) slice, tiled by batch entry, against its plain reference.

  For every batch entry b and time step t the data is a 64 × 512 matrix X (64 nodes, 512 features). Both programs embed
  the nodes (X · Wᵀ plus two biases), apply the leaky rectifier of slope 0.2, score each node against a vector, take the
  softmax of the 64 scores, average the rows of X with those weights and project the 512 averaged features to 256 outputs
  (plus a bias); the result is laid out (time, batch, output). The kernel does this for one batch entry per grid point,
  on the 32 · 64 rows of that entry flattened; the reference flattens (batch, time) to 1024 rows and works on whole arrays.

  At the exact extended reals the two are the same function, entry by entry: every matrix product is the plain finite
  sum over the contracted axis (so the tiling, the order of the terms and the narrower format of the kernel's product
  operands do not matter), the two maxima are one fold of max over the same 64 scores, and the remaining operations are
  the same pointwise operations in the same order. No algebraic law beyond reindexing a finite sum is used, so the
  finiteness of the inputs is never opened. The kernel's array after its 32 grid points and the reference's reshaped
  projection are both the one function Spec.whole of the arguments, and both programs end by exchanging its two
  leading axes.
-/
import proofs.«173493_j9594956939719_1_alg».proof.Defs
import proofs.«173493_j9594956939719_1_alg».proof.Proof.Gen.Kernel
import proofs.«173493_j9594956939719_1_alg».proof.Proof.Gen.Kernel.Frame
import proofs.«173493_j9594956939719_1_alg».proof.Proof.Gen.KernelIdeal
import proofs.«173493_j9594956939719_1_alg».proof.Proof.Gen.KernelIdeal.Frame
import proofs.«173493_j9594956939719_1_alg».proof.Proof.Gen.ReferenceIdeal
import proofs.«173493_j9594956939719_1_alg».proof.Proof.Gen.Pre_finite_inputs
import proofs.«173493_j9594956939719_1_alg».proof.Proof.KernelValue
import proofs.«173493_j9594956939719_1_alg».proof.Proof.RefRun
import proofs.«173493_j9594956939719_1_alg».proof.Proof.RefRead
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the kernel read at the extended reals. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- And the reference: its run, with the result dropped. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- From memories that agree on the arguments both programs end with the same array: the whole-array row function of the
    arguments with its two leading axes exchanged. -/
theorem algebraic :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' _ hagree
  refine ⟨fun c => transpose Cert.KernelIdeal.S32x32x256 [1, 0, 2] (Cert.KernelIdeal.Whole.pooledAll m c)
      Cert.KernelIdeal.Facts₀.transposes_S32x32x256_S32x32x256_1_0_2, Cert.KernelIdeal.Whole.run m ρ, ?_⟩
  refine (θ_run Cert.ReferenceIdeal.defs _ _).mono (fun _ h c => ⟨(h c).1.trans ?_, (h c).2⟩)
    (Cert.ReferenceIdeal.RefRun.run m' ρ')
  rw [Cert.ReferenceIdeal.Read.result_eq]
  obtain ⟨h0, h1, h2, h3, h4, h5, h6, h7⟩ := hagree c
  rw [h0, h1, h2, h3, h4, h5, h6, h7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
